-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S32x4096x512 .f32) (main_arg1 : FVec F S512x512 .f32) (main_arg2 : FVec F S512 .f32) (main_arg3 : FVec F S1x512 .f32) (main_arg4 : FVec F S1 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_v13 main_v16
-- ==== Kernel.lean ====
abbrev S32x4096x512 : Shape := ⟨3, ![32, 4096, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S32x512 : Shape := ⟨2, ![32, 512]⟩
abbrev S16x256x512 : Shape := ⟨3, ![16, 256, 512]⟩
abbrev S16x512 : Shape := ⟨2, ![16, 512]⟩
abbrev S16x1 : Shape := ⟨2, ![16, 1]⟩
abbrev S4096x512 : Shape := ⟨2, ![4096, 512]⟩
abbrev S1x1x512 : Shape := ⟨3, ![1, 1, 512]⟩
abbrev S16x256 : Shape := ⟨2, ![16, 256]⟩
abbrev S1x1 : Shape := ⟨2, ![1, 1]⟩
abbrev S16 : Shape := ⟨1, ![16]⟩
abbrev S16x1x256 : Shape := ⟨3, ![16, 1, 256]⟩
abbrev S16x1x512 : Shape := ⟨3, ![16, 1, 512]⟩

abbrev nBuf : Space → Nat
  | .hbm => 9
  | .vmem => 11
  | .smem => 0
  | _ => 0

abbrev bufTy : (tb : Table) → Fin (tcTables nBuf tb) → BufTy
  | .hbm, ⟨0, _⟩ => ⟨S32x4096x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S1, .f32⟩
  | .hbm, ⟨5, _⟩ => ⟨S512x512, .f32⟩
  | .hbm, ⟨6, _⟩ => ⟨S512x512, .bf16⟩
  | .hbm, ⟨7, _⟩ => ⟨S512, .f32⟩
  | .hbm, ⟨8, _⟩ => ⟨S32x512, .f32⟩
  | .local _ .vmem, ⟨0, _⟩ => ⟨S16x256x512, .f32⟩
  | .local _ .vmem, ⟨1, _⟩ => ⟨S16x256x512, .f32⟩
  | .local _ .vmem, ⟨2, _⟩ => ⟨S512x512, .bf16⟩
  | .local _ .vmem, ⟨3, _⟩ => ⟨S512, .f32⟩
  | .local _ .vmem, ⟨4, _⟩ => ⟨S512, .f32⟩
  | .local _ .vmem, ⟨5, _⟩ => ⟨S1, .f32⟩
  | .local _ .vmem, ⟨6, _⟩ => ⟨S16x512, .f32⟩
  | .local _ .vmem, ⟨7, _⟩ => ⟨S16x512, .f32⟩
  | .local _ .vmem, ⟨8, _⟩ => ⟨S16x1, .f32⟩
  | .local _ .vmem, ⟨9, _⟩ => ⟨S16x1, .f32⟩
  | .local _ .vmem, ⟨10, _⟩ => ⟨S16x512, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v58 : BitVec 1 := Scalar.cmpi .eq arg1 c15_i32
  let v59 : BitVec 32 := Scalar.extui v58
  let c0_i32_26 : BitVec 32 := 0#32
  let v60 : BitVec 1 := Scalar.cmpi .ne v59 c0_i32_26
  v60

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S16x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S512x512_S512x512_1_0 : S512x512.Transposes [1, 0] S512x512
  bitsLt_bf16_f32 : FTy.bits .bf16 < FTy.bits .f32
  shapeCasts_S1x512_S512 : S1x512.ShapeCasts S512
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x512_S16x512_0_0 : ∀ a, (![0, 0] : Fin 2 → Nat) a + S16x512.size a ≤ S16x512.size a
  h_S16x512 : 0 < S16x512.numel
  shapeCasts_S16x512_S16x512 : S16x512.ShapeCasts S16x512
  inb_S16x256x512_S16x256x512_0_0_0 : ∀ a, (![0, 0, 0] : Fin 3 → Nat) a + S16x256x512.size a ≤ S16x256x512.size a
  h_S16x256x512 : 0 < S16x256x512.numel
  shapeCasts_S16x256x512_S4096x512 : S16x256x512.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  shapeCasts_S512_S1x512 : S512.ShapeCasts S1x512
  broadcasts_S1x512_S4096x512 : S1x512.Broadcasts S4096x512
  shapeCasts_S4096x512_S16x256x512 : S4096x512.ShapeCasts S16x256x512
  shapeCasts_S512_S512 : S512.ShapeCasts S512
  shapeCasts_S512_S1x1x512 : S512.ShapeCasts S1x1x512
  broadcasts_S1x1x512_S16x256x512 : S1x1x512.Broadcasts S16x256x512
  reduces_S16x256x512_S16x256 : S16x256x512.Reduces [2] S16x256
  inb_S1_S1_0 : ∀ a, (![0] : Fin 1 → Nat) a + S1.size a ≤ S1.size a
  h_S1 : 0 < S1.numel
  shapeCasts_S1_S1x1 : S1.ShapeCasts S1x1
  broadcasts_S1x1_S16x256 : S1x1.Broadcasts S16x256
  reduces_S16x256_S16 : S16x256.Reduces [1] S16
  shapeCasts_S16_S16x1 : S16.ShapeCasts S16x1
  broadcasts_S16x1_S16x256 : S16x1.Broadcasts S16x256
  shapeCasts_S16x256_S16x1x256 : S16x256.ShapeCasts S16x1x256
  shapeCasts_S16x1x512_S16x512 : S16x1x512.ShapeCasts S16x512
  broadcasts_S16x1_S16x512 : S16x1.Broadcasts S16x512
  dot_S4096x512_S512x512_S4096x512_1_0_0_1_n_n_wf : DotDims.WF S4096x512 S512x512 S4096x512 [1] [0] [0] [1] [] []
  dot_S16x1x256_S16x256x512_S16x1x512_2_1_1_2_0_0_wf : DotDims.WF S16x1x256 S16x256x512 S16x1x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x512.size a ≤ S32x4096x512.size a
  hwx0_0 : ∀ i : grid0.Coords, EltTy.bits .f32 = 32 ∨ (Rect.block (s := S32x4096x512) S16x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S512.size a
  hwx0_3 : ∀ i : grid0.Coords, EltTy.bits .f32 = 32 ∨ (Rect.block (s := S512) S512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x512.size a ≤ S32x512.size a
  hwx0_5 : ∀ i : grid0.Coords, EltTy.bits .f32 = 32 ∨ (Rect.block (s := S32x512) S16x512.size (cc0_transform_5 i) (hinb0_5 i)).WholeWords (EltTy.packing .f32)

variable [Facts₀]

def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S16x1x256_S16x256x512_S16x1x512_2_1_1_2_0_0 : DotDims S16x1x256 S16x256x512 S16x1x512 where
  lhsContracting := [2]
  rhsContracting := [1]
  lhsNonContracting := [1]
  rhsNonContracting := [2]
  lhsBatch := [0]
  rhsBatch := [0]
  wf := dot_S16x1x256_S16x256x512_S16x1x512_2_1_1_2_0_0_wf

abbrev win0_0 : Pipeline.Window sig grid0 :=
  Pipeline.Window.ofSpec (Memref.whole main_arg0) S16x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S16x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S32x4096x512 : Shape := ⟨3, ![32, 4096, 512]⟩
abbrev S512x512 : Shape := ⟨2, ![512, 512]⟩
abbrev S512 : Shape := ⟨1, ![512]⟩
abbrev S1x512 : Shape := ⟨2, ![1, 512]⟩
abbrev S1 : Shape := ⟨1, ![1]⟩
abbrev S1x1x512 : Shape := ⟨3, ![1, 1, 512]⟩
abbrev S32x4096x1x512 : Shape := ⟨4, ![32, 4096, 1, 512]⟩
abbrev S32x1x4096x512 : Shape := ⟨4, ![32, 1, 4096, 512]⟩
abbrev S32x1x4096x1 : Shape := ⟨4, ![32, 1, 4096, 1]⟩
abbrev S1x1x1x1 : Shape := ⟨4, ![1, 1, 1, 1]⟩
abbrev S_ : Shape := ⟨0, ![]⟩
abbrev S32x1x1 : Shape := ⟨3, ![32, 1, 1]⟩
abbrev S32x1x1x1 : Shape := ⟨4, ![32, 1, 1, 1]⟩
abbrev S32x1x512 : Shape := ⟨3, ![32, 1, 512]⟩
abbrev S32x512 : Shape := ⟨2, ![32, 512]⟩

abbrev nBuf : Space → Nat
  | .hbm => 35
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S512x512, .f32⟩
  | .hbm, ⟨2, _⟩ => ⟨S512, .f32⟩
  | .hbm, ⟨3, _⟩ => ⟨S1x512, .f32⟩
  | .hbm, ⟨4, _⟩ => ⟨S1, .f32⟩
  | .hbm, ⟨5, _⟩ => ⟨S32x4096x512, .f32⟩
  | .hbm, ⟨6, _⟩ => ⟨S1x1x512, .f32⟩
  | .hbm, ⟨7, _⟩ => ⟨S32x4096x512, .f32⟩
  | .hbm, ⟨8, _⟩ => ⟨S32x4096x512, .f32⟩
  | .hbm, ⟨9, _⟩ => ⟨S32x4096x512, .f32⟩
  | .hbm, ⟨10, _⟩ => ⟨S32x4096x1x512, .f32⟩
  | .hbm, ⟨11, _⟩ => ⟨S32x1x4096x512, .f32⟩
  | .hbm, ⟨12, _⟩ => ⟨S32x1x4096x1, .f32⟩
  | .hbm, ⟨13, _⟩ => ⟨S1x1x1x1, .f32⟩
  | .hbm, ⟨14, _⟩ => ⟨S32x1x4096x1, .f32⟩
  | .hbm, ⟨15, _⟩ => ⟨S32x1x4096x1, .f32⟩
  | .hbm, ⟨16, _⟩ => ⟨S_, .f32⟩
  | .hbm, ⟨17, _⟩ => ⟨S32x1x1, .f32⟩
  | .hbm, ⟨18, _⟩ => ⟨S_, .f32⟩
  | .hbm, ⟨19, _⟩ => ⟨S32x1x1, .f32⟩
  | .hbm, ⟨20, _⟩ => ⟨S32x1x1, .f32⟩
  | .hbm, ⟨21, _⟩ => ⟨S32x1x1x1, .f32⟩
  | .hbm, ⟨22, _⟩ => ⟨S32x1x4096x1, .f32⟩
  | .hbm, ⟨23, _⟩ => ⟨S32x1x4096x1, .f32⟩
  | .hbm, ⟨24, _⟩ => ⟨S32x1x4096x1, .f32⟩
  | .hbm, ⟨25, _⟩ => ⟨S_, .f32⟩
  | .hbm, ⟨26, _⟩ => ⟨S32x1x1, .f32⟩
  | .hbm, ⟨27, _⟩ => ⟨S32x1x1x1, .f32⟩
  | .hbm, ⟨28, _⟩ => ⟨S32x1x4096x1, .f32⟩
  | .hbm, ⟨29, _⟩ => ⟨S32x1x4096x1, .f32⟩
  | .hbm, ⟨30, _⟩ => ⟨S32x1x4096x512, .f32⟩
  | .hbm, ⟨31, _⟩ => ⟨S32x1x4096x512, .f32⟩
  | .hbm, ⟨32, _⟩ => ⟨S_, .f32⟩
  | .hbm, ⟨33, _⟩ => ⟨S32x1x512, .f32⟩
  | .hbm, ⟨34, _⟩ => ⟨S32x512, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  shapeCasts_S32x4096x512_S32x4096x1x512 : S32x4096x512.ShapeCasts S32x4096x1x512
  transposes_S32x4096x1x512_S32x1x4096x512_0_2_1_3 : S32x4096x1x512.Transposes [0, 2, 1, 3] S32x1x4096x512
  bcast_S1_S1x1x1x1_3 : S1.BroadcastsInDim S1x1x1x1 (![3] : Fin 1 → Fin S1x1x1x1.rank)
  bcast_S1x1x1x1_S32x1x4096x1_0_1_2_3 : S1x1x1x1.BroadcastsInDim S32x1x4096x1 (![0, 1, 2, 3] : Fin 4 → Fin S32x1x4096x1.rank)
  reducesTo_S32x1x4096x1_S32x1x1_d2 : S32x1x4096x1.ReducesTo [2] S32x1x1
  h_S_ : 0 < S_.numel
  bcast_S_S32x1x1 : S_.BroadcastsInDim S32x1x1 (![] : Fin 0 → Fin S32x1x1.rank)
  bcast_S32x1x1_S32x1x1x1_0_1_3 : S32x1x1.BroadcastsInDim S32x1x1x1 (![0, 1, 3] : Fin 3 → Fin S32x1x1x1.rank)
  bcast_S32x1x1x1_S32x1x4096x1_0_1_2_3 : S32x1x1x1.BroadcastsInDim S32x1x4096x1 (![0, 1, 2, 3] : Fin 4 → Fin S32x1x4096x1.rank)
  bcast_S32x1x4096x1_S32x1x4096x512_0_1_2_3 : S32x1x4096x1.BroadcastsInDim S32x1x4096x512 (![0, 1, 2, 3] : Fin 4 → Fin S32x1x4096x512.rank)
  reducesTo_S32x1x4096x512_S32x1x512_d2 : S32x1x4096x512.ReducesTo [2] S32x1x512
  shapeCasts_S32x1x512_S32x512 : S32x1x512.ShapeCasts S32x512
  dot_S32x4096x512_S512x512_S32x4096x512_2_1_01_0_n_n_wf : DotDims.WF S32x4096x512 S512x512 S32x4096x512 [2] [1] [0, 1] [0] [] []
  dot_S32x1x4096x512_S1x512_S32x1x4096x1_3_1_012_0_n_n_wf : DotDims.WF S32x1x4096x512 S1x512 S32x1x4096x1 [3] [1] [0, 1, 2] [0] [] []

variable [Facts₀]

def dot_S32x4096x512_S512x512_S32x4096x512_2_1_01_0_n_n : DotDims S32x4096x512 S512x512 S32x4096x512 where
  lhsContracting := [2]
  rhsContracting := [1]
  lhsNonContracting := [0, 1]
  rhsNonContracting := [0]
  lhsBatch := []
  rhsBatch := []
  wf := dot_S32x4096x512_S512x512_S32x4096x512_2_1_01_0_n_n_wf
def dot_S32x1x4096x512_S1x512_S32x1x4096x1_3_1_012_0_n_n : DotDims S32x1x4096x512 S1x512 S32x1x4096x1 where
  lhsContracting := [3]
  rhsContracting := [1]
  lhsNonContracting := [0, 1, 2]
  rhsNonContracting := [0]
  lhsBatch := []
  rhsBatch := []
  wf := dot_S32x1x4096x512_S1x512_S32x1x4096x1_3_1_012_0_n_n_wf

class Facts : Prop extends Facts₀ where

variable [Facts]
-- ==== Proof.Pieces.lean ====
/-
  What each control case of the kernel body leaves in the three carried buffers (the running maximum, the running
  denominator, the running weighted sum) and, at a row's last block, in the output block — each as the body's own
  arithmetic applied to the point's input blocks and to what the buffers held before the point.

  Every one of these buffers is overwritten whole by a single store per point, so what it holds afterwards is that store's
  value; the loads feeding it read whole buffers, so they read the values the buffers held. At a row's first block the
  body first resets the three buffers (to −∞, 0, 0) and then reads them back: there the "previous" values are the reset
  values. Nothing here depends on what a float is.
-/
import proofs.«112554_j26792005993026_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.AttnPool.Pieces

open Cert.KernelIdeal Cert.KernelIdeal.Gen

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The new running maximum, from the point's input blocks and the old maximum. -/
abbrev newMax (x0 : Vec F S16x256x512 .f32) (x1 : Vec F S512x512 .bf16) (x2 : Vec F S512 .f32) (x3 : Vec F S512 .f32) (x4 : Vec F S1 .f32) (mo : Vec F S16x1 .f32) : FVec F S16x1 .f32 := k0_pay2 (k0_pay10 x0 x1 x2 x3 x4 mo)
/-- The new running denominator: the old one rescaled, plus the block's sum of weights. -/
abbrev newDen (x0 : Vec F S16x256x512 .f32) (x1 : Vec F S512x512 .bf16) (x2 : Vec F S512 .f32) (x3 : Vec F S512 .f32) (x4 : Vec F S1 .f32) (mo lo : Vec F S16x1 .f32) : FVec F S16x1 .f32 :=
  k0_pay3 (k0_pay11 x0 x1 x2 x3 x4 mo mo) (k0_pay13 x0 x1 x2 x3 x4 mo) lo
/-- The new running weighted sum: the old one rescaled, plus the block's weights against its energies. -/
abbrev newAcc (x0 : Vec F S16x256x512 .f32) (x1 : Vec F S512x512 .bf16) (x2 : Vec F S512 .f32) (x3 : Vec F S512 .f32) (x4 : Vec F S1 .f32) (mo : Vec F S16x1 .f32) (ao : Vec F S16x512 .f32) : FVec F S16x512 .f32 :=
  k0_pay1 (k0_pay8 x0 x1 x2) (k0_pay11 x0 x1 x2 x3 x4 mo mo) (k0_pay12 x0 x1 x2 x3 x4 mo) ao

/-! ## A row's first block: the buffers are reset to −∞, 0, 0 and then updated from those values -/

theorem soutA0 (c : Dev nD) (i : grid0.Coords) (arg2 : Memref sig .tc .vmem S16x256x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512 .f32) (harg5 : arg5.IsWhole) (arg6 : Memref sig .tc .vmem S1 .f32) (harg6 : arg6.IsWhole) (arg7 : Memref sig .tc .vmem S16x512 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x512 .f32) (harg10 : arg10.IsWhole) (hc0 : cond0_0 i) (hc1 : ¬cond0_1 i) (x0 : Vec F S16x256x512 .f32) (x1 : Vec F S512x512 .bf16) (x2 : Vec F S512 .f32) (x3 : Vec F S512 .f32) (x4 : Vec F S1 .f32) :
    sout0_A_0 c i arg2 harg2 arg3 harg3 arg4 harg4 arg5 harg5 arg6 harg6 arg7 harg7 arg8 harg8 arg9 harg9 arg10 harg10 hc0 hc1 x0 x1 x2 x3 x4 = newMax x0 x1 x2 x3 x4 (k0_pay5 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S16x1) hz2]
  simp only [View.readAt_eq_ld, harg2.read_unread, harg3.read_unread, harg4.read_unread, harg5.read_unread, harg6.read_unread, harg8.read_unread, harg9.read_unread, harg10.read_unread, View.ld_unit_zero (S := S16x256x512) hz3, View.ld_unit_zero (S := S512x512) hz2, View.ld_unit_zero (S := S512) hz1, View.ld_unit_zero (S := S1) hz1, View.ld_unit_zero (S := S16x1) hz2, View.ld_unit_zero (S := S16x512) hz2, View.readCov_unit_zero (S := S16x512) _ hz2, View.readCov_unit_zero (S := S16x1) _ hz2]

theorem soutA1 (c : Dev nD) (i : grid0.Coords) (arg2 : Memref sig .tc .vmem S16x256x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512 .f32) (harg5 : arg5.IsWhole) (arg6 : Memref sig .tc .vmem S1 .f32) (harg6 : arg6.IsWhole) (arg7 : Memref sig .tc .vmem S16x512 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x512 .f32) (harg10 : arg10.IsWhole) (hc0 : cond0_0 i) (hc1 : ¬cond0_1 i) (x0 : Vec F S16x256x512 .f32) (x1 : Vec F S512x512 .bf16) (x2 : Vec F S512 .f32) (x3 : Vec F S512 .f32) (x4 : Vec F S1 .f32) :
    sout0_A_1 c i arg2 harg2 arg3 harg3 arg4 harg4 arg5 harg5 arg6 harg6 arg7 harg7 arg8 harg8 arg9 harg9 arg10 harg10 hc0 hc1 x0 x1 x2 x3 x4 = newDen x0 x1 x2 x3 x4 (k0_pay5 (F := F)) (k0_pay6 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S16x1) hz2]
  simp only [View.readAt_eq_ld, harg2.read_unread, harg3.read_unread, harg4.read_unread, harg5.read_unread, harg6.read_unread, harg8.read_unread, harg9.read_unread, harg10.read_unread, View.ld_unit_zero (S := S16x256x512) hz3, View.ld_unit_zero (S := S512x512) hz2, View.ld_unit_zero (S := S512) hz1, View.ld_unit_zero (S := S1) hz1, View.ld_unit_zero (S := S16x1) hz2, View.ld_unit_zero (S := S16x512) hz2, View.readCov_unit_zero (S := S16x512) _ hz2, View.readCov_unit_zero (S := S16x1) _ hz2]

theorem soutA2 (c : Dev nD) (i : grid0.Coords) (arg2 : Memref sig .tc .vmem S16x256x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512 .f32) (harg5 : arg5.IsWhole) (arg6 : Memref sig .tc .vmem S1 .f32) (harg6 : arg6.IsWhole) (arg7 : Memref sig .tc .vmem S16x512 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x512 .f32) (harg10 : arg10.IsWhole) (hc0 : cond0_0 i) (hc1 : ¬cond0_1 i) (x0 : Vec F S16x256x512 .f32) (x1 : Vec F S512x512 .bf16) (x2 : Vec F S512 .f32) (x3 : Vec F S512 .f32) (x4 : Vec F S1 .f32) :
    sout0_A_2 c i arg2 harg2 arg3 harg3 arg4 harg4 arg5 harg5 arg6 harg6 arg7 harg7 arg8 harg8 arg9 harg9 arg10 harg10 hc0 hc1 x0 x1 x2 x3 x4 = newAcc x0 x1 x2 x3 x4 (k0_pay5 (F := F)) (k0_pay7 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S16x512) hz2]
  simp only [View.readAt_eq_ld, harg2.read_unread, harg3.read_unread, harg4.read_unread, harg5.read_unread, harg6.read_unread, harg8.read_unread, harg9.read_unread, harg10.read_unread, View.ld_unit_zero (S := S16x256x512) hz3, View.ld_unit_zero (S := S512x512) hz2, View.ld_unit_zero (S := S512) hz1, View.ld_unit_zero (S := S1) hz1, View.ld_unit_zero (S := S16x1) hz2, View.ld_unit_zero (S := S16x512) hz2, View.readCov_unit_zero (S := S16x512) _ hz2, View.readCov_unit_zero (S := S16x1) _ hz2]

/-! ## A block that is neither a row's first nor its last -/

theorem soutB0 (c : Dev nD) (i : grid0.Coords) (arg2 : Memref sig .tc .vmem S16x256x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512 .f32) (harg5 : arg5.IsWhole) (arg6 : Memref sig .tc .vmem S1 .f32) (harg6 : arg6.IsWhole) (arg7 : Memref sig .tc .vmem S16x512 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x512 .f32) (harg10 : arg10.IsWhole) (hc0 : ¬cond0_0 i) (hc1 : ¬cond0_1 i) (x0 : Vec F S16x256x512 .f32) (x1 : Vec F S512x512 .bf16) (x2 : Vec F S512 .f32) (x3 : Vec F S512 .f32) (x4 : Vec F S1 .f32) (xs0 : Vec F S16x1 .f32) (xs1 : Vec F S16x1 .f32) (xs2 : Vec F S16x512 .f32) :
    sout0_B_0 c i arg2 harg2 arg3 harg3 arg4 harg4 arg5 harg5 arg6 harg6 arg7 harg7 arg8 harg8 arg9 harg9 arg10 harg10 hc0 hc1 x0 x1 x2 x3 x4 xs0 xs1 xs2 = newMax x0 x1 x2 x3 x4 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S16x256x512) hz3, View.ld_unit_zero (S := S512x512) hz2, View.ld_unit_zero (S := S512) hz1, View.ld_unit_zero (S := S1) hz1, View.ld_unit_zero (S := S16x1) hz2, View.ld_unit_zero (S := S16x512) hz2]

theorem soutB1 (c : Dev nD) (i : grid0.Coords) (arg2 : Memref sig .tc .vmem S16x256x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512 .f32) (harg5 : arg5.IsWhole) (arg6 : Memref sig .tc .vmem S1 .f32) (harg6 : arg6.IsWhole) (arg7 : Memref sig .tc .vmem S16x512 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x512 .f32) (harg10 : arg10.IsWhole) (hc0 : ¬cond0_0 i) (hc1 : ¬cond0_1 i) (x0 : Vec F S16x256x512 .f32) (x1 : Vec F S512x512 .bf16) (x2 : Vec F S512 .f32) (x3 : Vec F S512 .f32) (x4 : Vec F S1 .f32) (xs0 : Vec F S16x1 .f32) (xs1 : Vec F S16x1 .f32) (xs2 : Vec F S16x512 .f32) :
    sout0_B_1 c i arg2 harg2 arg3 harg3 arg4 harg4 arg5 harg5 arg6 harg6 arg7 harg7 arg8 harg8 arg9 harg9 arg10 harg10 hc0 hc1 x0 x1 x2 x3 x4 xs0 xs1 xs2 = newDen x0 x1 x2 x3 x4 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S16x256x512) hz3, View.ld_unit_zero (S := S512x512) hz2, View.ld_unit_zero (S := S512) hz1, View.ld_unit_zero (S := S1) hz1, View.ld_unit_zero (S := S16x1) hz2, View.ld_unit_zero (S := S16x512) hz2]

theorem soutB2 (c : Dev nD) (i : grid0.Coords) (arg2 : Memref sig .tc .vmem S16x256x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512 .f32) (harg5 : arg5.IsWhole) (arg6 : Memref sig .tc .vmem S1 .f32) (harg6 : arg6.IsWhole) (arg7 : Memref sig .tc .vmem S16x512 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x512 .f32) (harg10 : arg10.IsWhole) (hc0 : ¬cond0_0 i) (hc1 : ¬cond0_1 i) (x0 : Vec F S16x256x512 .f32) (x1 : Vec F S512x512 .bf16) (x2 : Vec F S512 .f32) (x3 : Vec F S512 .f32) (x4 : Vec F S1 .f32) (xs0 : Vec F S16x1 .f32) (xs1 : Vec F S16x1 .f32) (xs2 : Vec F S16x512 .f32) :
    sout0_B_2 c i arg2 harg2 arg3 harg3 arg4 harg4 arg5 harg5 arg6 harg6 arg7 harg7 arg8 harg8 arg9 harg9 arg10 harg10 hc0 hc1 x0 x1 x2 x3 x4 xs0 xs1 xs2 = newAcc x0 x1 x2 x3 x4 xs0 xs2 := by
  unfold sout0_B_2
  rw [View.read_writes_eq_canon _ _ _ (scover0_B_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_B
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S16x256x512) hz3, View.ld_unit_zero (S := S512x512) hz2, View.ld_unit_zero (S := S512) hz1, View.ld_unit_zero (S := S1) hz1, View.ld_unit_zero (S := S16x1) hz2, View.ld_unit_zero (S := S16x512) hz2]

/-! ## A row's last block: the same update, then the division into the output block -/

theorem soutC0 (c : Dev nD) (i : grid0.Coords) (arg2 : Memref sig .tc .vmem S16x256x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512 .f32) (harg5 : arg5.IsWhole) (arg6 : Memref sig .tc .vmem S1 .f32) (harg6 : arg6.IsWhole) (arg7 : Memref sig .tc .vmem S16x512 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x512 .f32) (harg10 : arg10.IsWhole) (hc0 : ¬cond0_0 i) (hc1 : cond0_1 i) (x0 : Vec F S16x256x512 .f32) (x1 : Vec F S512x512 .bf16) (x2 : Vec F S512 .f32) (x3 : Vec F S512 .f32) (x4 : Vec F S1 .f32) (xs0 : Vec F S16x1 .f32) (xs1 : Vec F S16x1 .f32) (xs2 : Vec F S16x512 .f32) :
    sout0_C_0 c i arg2 harg2 arg3 harg3 arg4 harg4 arg5 harg5 arg6 harg6 arg7 harg7 arg8 harg8 arg9 harg9 arg10 harg10 hc0 hc1 x0 x1 x2 x3 x4 xs0 xs1 xs2 = newMax x0 x1 x2 x3 x4 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S16x256x512) hz3, View.ld_unit_zero (S := S512x512) hz2, View.ld_unit_zero (S := S512) hz1, View.ld_unit_zero (S := S1) hz1, View.ld_unit_zero (S := S16x1) hz2, View.ld_unit_zero (S := S16x512) hz2]

theorem soutC1 (c : Dev nD) (i : grid0.Coords) (arg2 : Memref sig .tc .vmem S16x256x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512 .f32) (harg5 : arg5.IsWhole) (arg6 : Memref sig .tc .vmem S1 .f32) (harg6 : arg6.IsWhole) (arg7 : Memref sig .tc .vmem S16x512 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x512 .f32) (harg10 : arg10.IsWhole) (hc0 : ¬cond0_0 i) (hc1 : cond0_1 i) (x0 : Vec F S16x256x512 .f32) (x1 : Vec F S512x512 .bf16) (x2 : Vec F S512 .f32) (x3 : Vec F S512 .f32) (x4 : Vec F S1 .f32) (xs0 : Vec F S16x1 .f32) (xs1 : Vec F S16x1 .f32) (xs2 : Vec F S16x512 .f32) :
    sout0_C_1 c i arg2 harg2 arg3 harg3 arg4 harg4 arg5 harg5 arg6 harg6 arg7 harg7 arg8 harg8 arg9 harg9 arg10 harg10 hc0 hc1 x0 x1 x2 x3 x4 xs0 xs1 xs2 = newDen x0 x1 x2 x3 x4 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S16x256x512) hz3, View.ld_unit_zero (S := S512x512) hz2, View.ld_unit_zero (S := S512) hz1, View.ld_unit_zero (S := S1) hz1, View.ld_unit_zero (S := S16x1) hz2, View.ld_unit_zero (S := S16x512) hz2]

theorem soutC2 (c : Dev nD) (i : grid0.Coords) (arg2 : Memref sig .tc .vmem S16x256x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512 .f32) (harg5 : arg5.IsWhole) (arg6 : Memref sig .tc .vmem S1 .f32) (harg6 : arg6.IsWhole) (arg7 : Memref sig .tc .vmem S16x512 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x512 .f32) (harg10 : arg10.IsWhole) (hc0 : ¬cond0_0 i) (hc1 : cond0_1 i) (x0 : Vec F S16x256x512 .f32) (x1 : Vec F S512x512 .bf16) (x2 : Vec F S512 .f32) (x3 : Vec F S512 .f32) (x4 : Vec F S1 .f32) (xs0 : Vec F S16x1 .f32) (xs1 : Vec F S16x1 .f32) (xs2 : Vec F S16x512 .f32) :
    sout0_C_2 c i arg2 harg2 arg3 harg3 arg4 harg4 arg5 harg5 arg6 harg6 arg7 harg7 arg8 harg8 arg9 harg9 arg10 harg10 hc0 hc1 x0 x1 x2 x3 x4 xs0 xs1 xs2 = newAcc x0 x1 x2 x3 x4 xs0 xs2 := by
  unfold sout0_C_2
  rw [View.read_writes_eq_canon _ _ _ (scover0_C_2 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S16x256x512) hz3, View.ld_unit_zero (S := S512x512) hz2, View.ld_unit_zero (S := S512) hz1, View.ld_unit_zero (S := S1) hz1, View.ld_unit_zero (S := S16x1) hz2, View.ld_unit_zero (S := S16x512) hz2]

/-- At a row's last block the output block is the new weighted sum divided, row by row, by the new denominator. -/
theorem outC5 (c : Dev nD) (i : grid0.Coords) (arg2 : Memref sig .tc .vmem S16x256x512 .f32) (harg2 : arg2.IsWhole) (arg3 : Memref sig .tc .vmem S512x512 .bf16) (harg3 : arg3.IsWhole) (arg4 : Memref sig .tc .vmem S512 .f32) (harg4 : arg4.IsWhole) (arg5 : Memref sig .tc .vmem S512 .f32) (harg5 : arg5.IsWhole) (arg6 : Memref sig .tc .vmem S1 .f32) (harg6 : arg6.IsWhole) (arg7 : Memref sig .tc .vmem S16x512 .f32) (harg7 : arg7.IsWhole) (arg8 : Memref sig .tc .vmem S16x1 .f32) (harg8 : arg8.IsWhole) (arg9 : Memref sig .tc .vmem S16x1 .f32) (harg9 : arg9.IsWhole) (arg10 : Memref sig .tc .vmem S16x512 .f32) (harg10 : arg10.IsWhole) (hc0 : ¬cond0_0 i) (hc1 : cond0_1 i) (x0 : Vec F S16x256x512 .f32) (x1 : Vec F S512x512 .bf16) (x2 : Vec F S512 .f32) (x3 : Vec F S512 .f32) (x4 : Vec F S1 .f32) (xs0 : Vec F S16x1 .f32) (xs1 : Vec F S16x1 .f32) (xs2 : Vec F S16x512 .f32) :
    out0_C_5 c i arg2 harg2 arg3 harg3 arg4 harg4 arg5 harg5 arg6 harg6 arg7 harg7 arg8 harg8 arg9 harg9 arg10 harg10 hc0 hc1 x0 x1 x2 x3 x4 xs0 xs1 xs2 = k0_pay4 (newAcc x0 x1 x2 x3 x4 xs0 xs2) (newDen x0 x1 x2 x3 x4 xs0 xs1) := by
  unfold out0_C_5
  rw [View.read_writes_eq_canon _ _ _ (cover0_C_5 c i arg2 harg2 arg3 harg3 arg4 harg4 arg5 harg5 arg6 harg6 arg7 harg7 arg8 harg8 arg9 harg9 arg10 harg10 hc0 hc1 x0 x1 x2 x3 x4 xs0 xs1 xs2)]
  unfold kernelRun0_C
  dsimp only
  sl_unfold_words
  rw [View.canon_unit_zero hz2]
  simp only [View.readAt_eq_ld, harg2.read_unread, harg3.read_unread, harg4.read_unread, harg5.read_unread, harg6.read_unread, harg8.read_unread, harg9.read_unread, harg10.read_unread, View.ld_unit_zero (S := S16x256x512) hz3, View.ld_unit_zero (S := S512x512) hz2, View.ld_unit_zero (S := S512) hz1, View.ld_unit_zero (S := S1) hz1, View.ld_unit_zero (S := S16x1) hz2, View.ld_unit_zero (S := S16x512) hz2, View.readCov_unit_zero (S := S16x512) _ hz2, View.readCov_unit_zero (S := S16x1) _ hz2]

end Cert.AttnPool.Pieces

end
-- ==== Proof.PointState.lean ====
/-
  What the three carried buffers, and at a row's last block the output block, hold after each grid point — as the body's
  update of the point's five input blocks and of what the buffers held after the point before.

  Grid point t is block t % 16 of the rows 16·(t / 16) … 16·(t / 16) + 15. Three kinds of point: a row's first block
  starts from the reset values (−∞, 0, 0) and does not look at the point before; a middle block continues from the point
  before; a row's last block continues likewise and then divides into the output block.
-/
import proofs.«112554_j26792005993026_2_alg».proof.Proof.Pieces

set_option maxRecDepth 16384

noncomputable section

open Idealize.ShloMosaic Idealize.ShloMosaic.TcCoe Idealize.SL.Sem

namespace Cert.AttnPool.PointState

open Cert.KernelIdeal Cert.KernelIdeal.Gen

variable {F : FTy → Type} [FloatOps F]
variable (m : (ℓ : Loc nD τ sig) → Buf (Elt F) ℓ) (c : Dev nD)

/-! ## A row's first block (t ≡ 0 mod 16) -/

-- (the point's contents are one long generated term: unfolding it to its projections takes more than the default budget)
set_option maxHeartbeats 4000000 in
theorem atA_m (t : Fin cfg0.N) (h0 : t.val % 16 = 0) (h1 : ¬t.val % 16 = 15) :
    (outsAt0 m c t.val t.isLt).2.1 = Pieces.newMax (iblk m c 0 t) (iblk m c 1 t) (iblk m c 2 t) (iblk m c 3 t) (iblk m c 4 t) (k0_pay5 (F := F)) :=
  (congrArg (fun q => q.2.1) (outsAt0_A m c t h0 h1)).trans
    (Pieces.soutA0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t))

-- (the point's contents are one long generated term: unfolding it to its projections takes more than the default budget)
set_option maxHeartbeats 4000000 in
theorem atA_l (t : Fin cfg0.N) (h0 : t.val % 16 = 0) (h1 : ¬t.val % 16 = 15) :
    (outsAt0 m c t.val t.isLt).2.2.1 = Pieces.newDen (iblk m c 0 t) (iblk m c 1 t) (iblk m c 2 t) (iblk m c 3 t) (iblk m c 4 t) (k0_pay5 (F := F)) (k0_pay6 (F := F)) :=
  (congrArg (fun q => q.2.2.1) (outsAt0_A m c t h0 h1)).trans
    (Pieces.soutA1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t))

-- (the point's contents are one long generated term: unfolding it to its projections takes more than the default budget)
set_option maxHeartbeats 4000000 in
theorem atA_a (t : Fin cfg0.N) (h0 : t.val % 16 = 0) (h1 : ¬t.val % 16 = 15) :
    (outsAt0 m c t.val t.isLt).2.2.2 = Pieces.newAcc (iblk m c 0 t) (iblk m c 1 t) (iblk m c 2 t) (iblk m c 3 t) (iblk m c 4 t) (k0_pay5 (F := F)) (k0_pay7 (F := F)) :=
  (congrArg (fun q => q.2.2.2) (outsAt0_A m c t h0 h1)).trans
    (Pieces.soutA2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t))

/-! ## A middle block -/

-- (the point's contents are one long generated term: unfolding it to its projections takes more than the default budget)
set_option maxHeartbeats 4000000 in
theorem atB_m (t : Fin cfg0.N) (h0 : ¬t.val % 16 = 0) (h1 : ¬t.val % 16 = 15) :
    (outsAt0 m c t.val t.isLt).2.1 = Pieces.newMax (iblk m c 0 t) (iblk m c 1 t) (iblk m c 2 t) (iblk m c 3 t) (iblk m c 4 t) (outsAt0 m c (t.val - 1) (Nat.lt_of_le_of_lt (Nat.sub_le _ _) t.isLt)).2.1 :=
  (congrArg (fun q => q.2.1) (outsAt0_B m c t h0 h1)).trans
    (Pieces.soutB0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

-- (the point's contents are one long generated term: unfolding it to its projections takes more than the default budget)
set_option maxHeartbeats 4000000 in
theorem atB_l (t : Fin cfg0.N) (h0 : ¬t.val % 16 = 0) (h1 : ¬t.val % 16 = 15) :
    (outsAt0 m c t.val t.isLt).2.2.1 = Pieces.newDen (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 :=
  (congrArg (fun q => q.2.2.1) (outsAt0_B m c t h0 h1)).trans
    (Pieces.soutB1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

-- (the point's contents are one long generated term: unfolding it to its projections takes more than the default budget)
set_option maxHeartbeats 4000000 in
theorem atB_a (t : Fin cfg0.N) (h0 : ¬t.val % 16 = 0) (h1 : ¬t.val % 16 = 15) :
    (outsAt0 m c t.val t.isLt).2.2.2 = Pieces.newAcc (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2 :=
  (congrArg (fun q => q.2.2.2) (outsAt0_B m c t h0 h1)).trans
    (Pieces.soutB2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

/-! ## A row's last block (t ≡ 15 mod 16) -/

-- (the point's contents are one long generated term: unfolding it to its projections takes more than the default budget)
set_option maxHeartbeats 4000000 in
theorem atC_m (t : Fin cfg0.N) (h0 : ¬t.val % 16 = 0) (h1 : t.val % 16 = 15) :
    (outsAt0 m c t.val t.isLt).2.1 = Pieces.newMax (iblk m c 0 t) (iblk m c 1 t) (iblk m c 2 t) (iblk m c 3 t) (iblk m c 4 t) (outsAt0 m c (t.val - 1) (Nat.lt_of_le_of_lt (Nat.sub_le _ _) t.isLt)).2.1 :=
  (congrArg (fun q => q.2.1) (outsAt0_C m c t h0 h1)).trans
    (Pieces.soutC0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

-- (the point's contents are one long generated term: unfolding it to its projections takes more than the default budget)
set_option maxHeartbeats 4000000 in
theorem atC_l (t : Fin cfg0.N) (h0 : ¬t.val % 16 = 0) (h1 : t.val % 16 = 15) :
    (outsAt0 m c t.val t.isLt).2.2.1 = Pieces.newDen (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 :=
  (congrArg (fun q => q.2.2.1) (outsAt0_C m c t h0 h1)).trans
    (Pieces.soutC1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

-- (the point's contents are one long generated term: unfolding it to its projections takes more than the default budget)
set_option maxHeartbeats 4000000 in
theorem atC_a (t : Fin cfg0.N) (h0 : ¬t.val % 16 = 0) (h1 : t.val % 16 = 15) :
    (outsAt0 m c t.val t.isLt).2.2.2 = Pieces.newAcc (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2 :=
  (congrArg (fun q => q.2.2.2) (outsAt0_C m c t h0 h1)).trans
    (Pieces.soutC2 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

-- (the point's contents are one long generated term: unfolding it to its projections takes more than the default budget)
set_option maxHeartbeats 4000000 in
theorem atC_o (t : Fin cfg0.N) (h0 : ¬t.val % 16 = 0) (h1 : t.val % 16 = 15) :
    (outsAt0 m c t.val t.isLt).1 = k0_pay4 (Pieces.newAcc (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.2) (Pieces.newDen (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1) :=
  (congrArg (fun q => q.1) (outsAt0_C m c t h0 h1)).trans
    (Pieces.outC5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2)

end Cert.AttnPool.PointState

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.PayIdxOps.lean ====
/-
  Operations on blocks read at an index, over the extended reals: the layout operations (views of an array under
  another shape, broadcasts of unit axes), the sums and the maximum over a last axis, and the two matrix products the
  kernel's block arithmetic is made of. Every index is written by its coordinates.

  A view of an array under another shape keeps the row-major position: [a, b, c] seen as [a·b, c] sends (p, r, d) to
  (p·b + r, d); a unit axis may be inserted or dropped anywhere. A matrix product with one contracted axis, into the
  zero accumulator, is at an output index the sum over the contracted coordinate of the operands' products.
-/
import proofs.«112554_j26792005993026_2_alg».proof.Proof.Gen.KernelIdeal
import proofs.«112554_j26792005993026_2_alg».proof.Proof.LibMatmul
import Idealize.ShloMosaic.Lib.Pipeline.Value
import Idealize.ShloMosaic.Lib.ValueIdx
import Idealize.ShloMosaic.Lib.ValueLayout
import Idealize.ShloMosaic.PureOps.Ideal.Laws

noncomputable section

namespace Cert.AttnPool.PayIdx

open Cert.KernelIdeal Cert.KernelIdeal.Gen Idealize.ShloMosaic Idealize.ShloMosaic.ValueIdx

/-! ## Layout operations at an index -/

section Layout
variable {α : Type}

/-- An [a, b, c] array viewed as [m, c] (m = a·b) reads, at (q, d) with q = p·b + r, the operand at (p, r, d). -/
theorem cast_abc_mc_apply {a b c m : ℕ} (x : (⟨3, ![a, b, c]⟩ : Shape).Idx → α)
    (h : (⟨3, ![a, b, c]⟩ : Shape).ShapeCasts ⟨2, ![m, c]⟩) (p : Fin a) (r : Fin b) (d : Fin c) (q : Fin m)
    (hq : q.val = p.val * b + r.val) : shapeCast ⟨2, ![m, c]⟩ x h (ix2 q d) = x (ix3 p r d) :=
  shapeCast_apply x h _ _ (by
    rw [Shape.rowMajor_val_three, Shape.rowMajor_val_two]
    show (p.val * b + r.val) * c + d.val = q.val * c + d.val
    rw [hq])

/-- An [m, c] array viewed as [a, b, c] (m = a·b) reads, at (p, r, d), the operand at (q, d) with q = p·b + r. -/
theorem cast_mc_abc_apply {a b c m : ℕ} (y : (⟨2, ![m, c]⟩ : Shape).Idx → α)
    (h : (⟨2, ![m, c]⟩ : Shape).ShapeCasts ⟨3, ![a, b, c]⟩) (p : Fin a) (r : Fin b) (d : Fin c) (q : Fin m)
    (hq : q.val = p.val * b + r.val) : shapeCast ⟨3, ![a, b, c]⟩ y h (ix3 p r d) = y (ix2 q d) :=
  shapeCast_apply y h _ _ (by
    rw [Shape.rowMajor_val_three, Shape.rowMajor_val_two]
    show q.val * c + d.val = (p.val * b + r.val) * c + d.val
    rw [hq])

/-- An [a] array viewed as [1, 1, a] reads, at (u, v, i), the operand at i. -/
theorem cast_a_11a_apply {a : ℕ} (x : (⟨1, ![a]⟩ : Shape).Idx → α) (h : (⟨1, ![a]⟩ : Shape).ShapeCasts ⟨3, ![1, 1, a]⟩)
    (u v : Fin 1) (i : Fin a) : shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv, Nat.zero_mul, Nat.zero_add])

/-- An [a, b] array viewed as [a, 1, b] reads, at (p, u, k), the operand at (p, k). -/
theorem cast_ab_a1b_apply {a b : ℕ} (x : (⟨2, ![a, b]⟩ : Shape).Idx → α)
    (h : (⟨2, ![a, b]⟩ : Shape).ShapeCasts ⟨3, ![a, 1, b]⟩) (p : Fin a) (u : Fin 1) (k : Fin b) :
    shapeCast ⟨3, ![a, 1, b]⟩ x h (ix3 p u k) = x (ix2 p k) :=
  shapeCast_apply x h _ _ (by
    have hu : u.val = 0 := by omega
    rw [Shape.rowMajor_val_three, Shape.rowMajor_val_two]
    show p.val * b + k.val = (p.val * 1 + u.val) * b + k.val
    rw [hu, Nat.mul_one, Nat.add_zero])

/-- An [a, 1, b] array viewed as [a, b] reads, at (p, k), the operand at (p, 0, k). -/
theorem cast_a1b_ab_apply {a b : ℕ} (x : (⟨3, ![a, 1, b]⟩ : Shape).Idx → α)
    (h : (⟨3, ![a, 1, b]⟩ : Shape).ShapeCasts ⟨2, ![a, b]⟩) (p : Fin a) (k : Fin b) :
    shapeCast ⟨2, ![a, b]⟩ x h (ix2 p k) = x (ix3 p (0 : Fin 1) k) :=
  shapeCast_apply x h _ _ (by
    rw [Shape.rowMajor_val_three, Shape.rowMajor_val_two]
    show (p.val * 1 + 0) * b + k.val = p.val * b + k.val
    rw [Nat.mul_one, Nat.add_zero])

/-- A [1, 1, c] array broadcast to [a, b, c] reads, at (p, r, k), the operand at (0, 0, k). -/
theorem bcast_11c_abc_apply {a b c : ℕ} (v : (⟨3, ![1, 1, c]⟩ : Shape).Idx → α)
    (h : (⟨3, ![1, 1, c]⟩ : Shape).Broadcasts ⟨3, ![a, b, c]⟩) (p : Fin a) (r : Fin b) (k : Fin c) :
    broadcastTo ⟨3, ![a, b, c]⟩ v h (ix3 p r k) = v (ix3 (0 : Fin 1) (0 : Fin 1) k) := by
  refine broadcastTo_apply v h (ix3 p r k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A [1, 1] array broadcast to [a, b] reads its one entry everywhere. -/
theorem bcast_11_ab_apply {a b : ℕ} (v : (⟨2, ![1, 1]⟩ : Shape).Idx → α)
    (h : (⟨2, ![1, 1]⟩ : Shape).Broadcasts ⟨2, ![a, b]⟩) (p : Fin a) (r : Fin b) :
    broadcastTo ⟨2, ![a, b]⟩ v h (ix2 p r) = v (ix2 (0 : Fin 1) (0 : Fin 1)) := by
  refine broadcastTo_apply v h (ix2 p r) (ix2 (0 : Fin 1) (0 : Fin 1)) fun ax => ?_
  match ax with
  | ⟨0, _⟩ => rfl
  | ⟨1, _⟩ => rfl

end Layout

/-! ## The lane reductions at an index -/

/-- The sum over the last axis of a [16, 256, 512] array, at (p, r): the sum over k of the array at (p, r, k). -/
theorem sum_lane3 (src : FVec Ideal S16x256x512 .f32) (h : S16x256x512.Reduces [2] S16x256) (hφ : FKind.Formats .f32)
    (hacc : (0x00000000#32 : BitVec 32) = FKind.add.neutral .f32 hφ) (p : Fin 16) (r : Fin 256) :
    multiReduction .add [2] S16x256 src 0x00000000#32 h hφ hacc (ix2 p r) = ∑ k : Fin 512, src (ix3 p r k) := by
  refine (Ideal.multiReduction_add_single src 0x00000000#32 h hφ hacc (ix2 p r)).trans ?_
  refine Finset.sum_congr rfl fun k _ => congrArg src ?_
  funext c
  refine Fin.ext ?_
  match c with
  | ⟨0, _⟩ => rfl
  | ⟨1, _⟩ => rfl
  | ⟨2, _⟩ => rfl

/-- The sum over the last axis of a [16, 256] array, at p: the sum over r of the array at (p, r). -/
theorem sum_lane2 (src : FVec Ideal S16x256 .f32) (h : S16x256.Reduces [1] S16) (hφ : FKind.Formats .f32)
    (hacc : (0x00000000#32 : BitVec 32) = FKind.add.neutral .f32 hφ) (p : Fin 16) :
    multiReduction .add [1] S16 src 0x00000000#32 h hφ hacc (ix1 p) = ∑ r : Fin 256, src (ix2 p r) := by
  refine (Ideal.multiReduction_add_single src 0x00000000#32 h hφ hacc (ix1 p)).trans ?_
  refine Finset.sum_congr rfl fun k _ => congrArg src ?_
  funext c
  refine Fin.ext ?_
  match c with
  | ⟨0, _⟩ => rfl
  | ⟨1, _⟩ => rfl

/-- The pattern 0xFF800000 (sign 1, exponent all ones, significand 0) denotes −∞. -/
theorem ofBits_neg_inf : Ideal.ofBits .f32 0xFF800000#32 = (⊥ : EReal) := by
  simp [Ideal.ofBits, Ideal.ieee]

/-- The maximum over the last axis of a [16, 256] array from −∞, at p: the fold of max over r of the array at (p, r). -/
theorem max_lane2 (src : FVec Ideal S16x256 .f32) (h : S16x256.Reduces [1] S16) (hφ : FKind.Formats .f32)
    (hacc : (0xFF800000#32 : BitVec 32) = FKind.maximumf.neutral .f32 hφ) (p : Fin 16) :
    multiReduction .maximumf [1] S16 src 0xFF800000#32 h hφ hacc (ix1 p)
      = (Finset.univ : Finset (Fin 256)).fold max (⊥ : EReal) (fun r => src (ix2 p r)) := by
  refine (Ideal.multiReduction_maximumf_single src 0xFF800000#32 h hφ hacc (ix1 p)).trans ?_
  have hf : (src ∘ h.lift (ix1 p)) = fun r : Fin 256 => src (ix2 p r) := funext fun k => congrArg src (by
    funext c
    refine Fin.ext ?_
    match c with
    | ⟨0, _⟩ => rfl
    | ⟨1, _⟩ => rfl)
  have hb : FloatOps.ofBits (F := Ideal) .f32 0xFF800000#32 = (⊥ : EReal) := ofBits_neg_inf
  rw [hf, hb]
  rfl

/-! ## The two matrix products at an index

  For each product, the operand index at an output index j and a contraction index c, coordinate by coordinate: a
  batch or kept axis reads j at its place among the output's axes, the contracted axis reads c. -/

/-! The first product, [4096, 512] by [512, 512] contracting the left operand's axis 1 with the right operand's axis 0. -/
theorem mm1_lhs0 (j : S4096x512.Idx) (c : dot_S4096x512_S512x512_S4096x512_1_0_0_1_n_n.contr.Idx) :
    (dot_S4096x512_S512x512_S4096x512_1_0_0_1_n_n.lhsIdx j c 0).val = (j 0).val := by
  unfold DotDims.lhsIdx
  rw [dif_neg (show ¬(0 : Fin S4096x512.rank) ∈ dot_S4096x512_S512x512_S4096x512_1_0_0_1_n_n.lhsBatch by decide), dif_pos (show (0 : Fin S4096x512.rank) ∈ dot_S4096x512_S512x512_S4096x512_1_0_0_1_n_n.lhsNonContracting by decide)]
  rfl
theorem mm1_lhs1 (j : S4096x512.Idx) (c : dot_S4096x512_S512x512_S4096x512_1_0_0_1_n_n.contr.Idx) :
    (dot_S4096x512_S512x512_S4096x512_1_0_0_1_n_n.lhsIdx j c 1).val = (c ⟨0, by decide⟩).val :=
  dot_S4096x512_S512x512_S4096x512_1_0_0_1_n_n.lhsIdx_val_of_single rfl j c
theorem mm1_rhs0 (j : S4096x512.Idx) (c : dot_S4096x512_S512x512_S4096x512_1_0_0_1_n_n.contr.Idx) :
    (dot_S4096x512_S512x512_S4096x512_1_0_0_1_n_n.rhsIdx j c 0).val = (c ⟨0, by decide⟩).val :=
  dot_S4096x512_S512x512_S4096x512_1_0_0_1_n_n.rhsIdx_val_of_single rfl j c
theorem mm1_rhs1 (j : S4096x512.Idx) (c : dot_S4096x512_S512x512_S4096x512_1_0_0_1_n_n.contr.Idx) :
    (dot_S4096x512_S512x512_S4096x512_1_0_0_1_n_n.rhsIdx j c 1).val = (j 1).val := by
  unfold DotDims.rhsIdx
  rw [dif_neg (show ¬(1 : Fin S512x512.rank) ∈ dot_S4096x512_S512x512_S4096x512_1_0_0_1_n_n.rhsBatch by decide), dif_pos (show (1 : Fin S512x512.rank) ∈ dot_S4096x512_S512x512_S4096x512_1_0_0_1_n_n.rhsNonContracting by decide)]
  rfl

/-- The first product into the zero accumulator, at (q, h): Σ_k lhs(q, k) · rhs(k, h). -/
theorem mm1_apply (lhs : FVec Ideal S4096x512 .bf16) (rhs : FVec Ideal S512x512 .bf16) (q : Fin 4096) (h : Fin 512) :
    FloatOps.matmul dot_S4096x512_S512x512_S4096x512_1_0_0_1_n_n none lhs rhs (constant S4096x512 .f32 0x00000000#32) (ix2 q h)
      = ∑ k : Fin 512, lhs (ix2 q k) * rhs (ix2 k h) :=
  Cert.LibMatmul.matmul_zero_sum1 dot_S4096x512_S512x512_S4096x512_1_0_0_1_n_n none 512 rfl rfl lhs rhs (ix2 q h) (fun k => ix2 q k) (fun k => ix2 k h)
    (fun c k hk => funext fun a => Fin.ext (by
      match a with
      | ⟨0, _⟩ => exact mm1_lhs0 _ _
      | ⟨1, _⟩ => exact (mm1_lhs1 _ _).trans hk))
    (fun c k hk => funext fun a => Fin.ext (by
      match a with
      | ⟨0, _⟩ => exact (mm1_rhs0 _ _).trans hk
      | ⟨1, _⟩ => exact mm1_rhs1 _ _))

/-! The batched product, [16, 1, 256] by [16, 256, 512]: batch axis 0 of both, contracting the left operand's axis 2
    with the right operand's axis 1. -/
theorem mm2_lhs0 (j : S16x1x512.Idx) (c : dot_S16x1x256_S16x256x512_S16x1x512_2_1_1_2_0_0.contr.Idx) :
    (dot_S16x1x256_S16x256x512_S16x1x512_2_1_1_2_0_0.lhsIdx j c 0).val = (j 0).val := by
  unfold DotDims.lhsIdx
  rw [dif_pos (show (0 : Fin S16x1x256.rank) ∈ dot_S16x1x256_S16x256x512_S16x1x512_2_1_1_2_0_0.lhsBatch by decide)]
  rfl
theorem mm2_lhs1 (j : S16x1x512.Idx) (c : dot_S16x1x256_S16x256x512_S16x1x512_2_1_1_2_0_0.contr.Idx) :
    (dot_S16x1x256_S16x256x512_S16x1x512_2_1_1_2_0_0.lhsIdx j c 1).val = (j 1).val := by
  unfold DotDims.lhsIdx
  rw [dif_neg (show ¬(1 : Fin S16x1x256.rank) ∈ dot_S16x1x256_S16x256x512_S16x1x512_2_1_1_2_0_0.lhsBatch by decide), dif_pos (show (1 : Fin S16x1x256.rank) ∈ dot_S16x1x256_S16x256x512_S16x1x512_2_1_1_2_0_0.lhsNonContracting by decide)]
  rfl
theorem mm2_lhs2 (j : S16x1x512.Idx) (c : dot_S16x1x256_S16x256x512_S16x1x512_2_1_1_2_0_0.contr.Idx) :
    (dot_S16x1x256_S16x256x512_S16x1x512_2_1_1_2_0_0.lhsIdx j c 2).val = (c ⟨0, by decide⟩).val :=
  dot_S16x1x256_S16x256x512_S16x1x512_2_1_1_2_0_0.lhsIdx_val_of_single rfl j c
theorem mm2_rhs0 (j : S16x1x512.Idx) (c : dot_S16x1x256_S16x256x512_S16x1x512_2_1_1_2_0_0.contr.Idx) :
    (dot_S16x1x256_S16x256x512_S16x1x512_2_1_1_2_0_0.rhsIdx j c 0).val = (j 0).val := by
  unfold DotDims.rhsIdx
  rw [dif_pos (show (0 : Fin S16x256x512.rank) ∈ dot_S16x1x256_S16x256x512_S16x1x512_2_1_1_2_0_0.rhsBatch by decide)]
  rfl
theorem mm2_rhs1 (j : S16x1x512.Idx) (c : dot_S16x1x256_S16x256x512_S16x1x512_2_1_1_2_0_0.contr.Idx) :
    (dot_S16x1x256_S16x256x512_S16x1x512_2_1_1_2_0_0.rhsIdx j c 1).val = (c ⟨0, by decide⟩).val :=
  dot_S16x1x256_S16x256x512_S16x1x512_2_1_1_2_0_0.rhsIdx_val_of_single rfl j c
theorem mm2_rhs2 (j : S16x1x512.Idx) (c : dot_S16x1x256_S16x256x512_S16x1x512_2_1_1_2_0_0.contr.Idx) :
    (dot_S16x1x256_S16x256x512_S16x1x512_2_1_1_2_0_0.rhsIdx j c 2).val = (j 2).val := by
  unfold DotDims.rhsIdx
  rw [dif_neg (show ¬(2 : Fin S16x256x512.rank) ∈ dot_S16x1x256_S16x256x512_S16x1x512_2_1_1_2_0_0.rhsBatch by decide), dif_pos (show (2 : Fin S16x256x512.rank) ∈ dot_S16x1x256_S16x256x512_S16x1x512_2_1_1_2_0_0.rhsNonContracting by decide)]
  rfl

/-- The batched product into the zero accumulator, at (p, u, h): Σ_k lhs(p, u, k) · rhs(p, k, h). -/
theorem mm2_apply (lhs : FVec Ideal S16x1x256 .bf16) (rhs : FVec Ideal S16x256x512 .bf16) (p : Fin 16) (u : Fin 1) (h : Fin 512) :
    FloatOps.matmul dot_S16x1x256_S16x256x512_S16x1x512_2_1_1_2_0_0 none lhs rhs (constant S16x1x512 .f32 0x00000000#32) (ix3 p u h)
      = ∑ k : Fin 256, lhs (ix3 p u k) * rhs (ix3 p k h) :=
  Cert.LibMatmul.matmul_zero_sum1 dot_S16x1x256_S16x256x512_S16x1x512_2_1_1_2_0_0 none 256 rfl rfl lhs rhs (ix3 p u h) (fun k => ix3 p u k) (fun k => ix3 p k h)
    (fun c k hk => funext fun a => Fin.ext (by
      match a with
      | ⟨0, _⟩ => exact mm2_lhs0 _ _
      | ⟨1, _⟩ => exact mm2_lhs1 _ _
      | ⟨2, _⟩ => exact (mm2_lhs2 _ _).trans hk))
    (fun c k hk => funext fun a => Fin.ext (by
      match a with
      | ⟨0, _⟩ => exact mm2_rhs0 _ _
      | ⟨1, _⟩ => exact (mm2_rhs1 _ _).trans hk
      | ⟨2, _⟩ => exact mm2_rhs2 _ _))

end Cert.AttnPool.PayIdx

end
-- ==== Proof.PayIdx.lean ====
/-
  The kernel's block arithmetic read at an index, over the extended reals.

  One grid step holds a block of 16 batch rows by 256 time steps. For a row p, a step r and a hidden unit h the
  block's energy is eB p r h = tanh (Σ_d x0(p,r,d) · x1(d,h) + x2(h)) (x1 is the transposed weight), its score is
  sB p r = Σ_h eB p r h · x3(h) + x4, the new running maximum is mN p = max (old maximum) (max_r sB p r), and the
  running denominator and accumulator are rescaled by exp (old maximum − mN) and extended by the block's
  Σ_r exp (sB p r − mN) and Σ_r exp (sB p r − mN) · eB p r h. Each lemma below reads one payload of the program at
  an index written by its coordinates and states it in these terms.
-/
import proofs.«112554_j26792005993026_2_alg».proof.Proof.Gen.KernelIdeal.Skeleton
import proofs.«112554_j26792005993026_2_alg».proof.Proof.LibKeepdims
import proofs.«112554_j26792005993026_2_alg».proof.Proof.PayIdxOps
import Idealize.ShloMosaic.Lib.Pipeline.Value
import Idealize.ShloMosaic.Lib.ValueIdx
import Idealize.ShloMosaic.Lib.ValueLayout
import Idealize.ShloMosaic.PureOps.Ideal.Laws

noncomputable section

namespace Cert.AttnPool.PayIdx

open Cert.KernelIdeal Cert.KernelIdeal.Gen Idealize.ShloMosaic Idealize.ShloMosaic.ValueIdx

/-! ## Pointwise operations on extended reals -/

/-- tanh of a vector at an index. -/
theorem tanh_apply {s : Shape} {φ : FTy} (v : FVec Ideal s φ) (i : s.Idx) : tanh v i = Ideal.tanh (v i) := rfl
/-- exp of a vector at an index. -/
theorem exp_apply {s : Shape} {φ : FTy} (v : FVec Ideal s φ) (i : s.Idx) : exp v i = Ideal.exp (v i) := rfl

theorem add_congr {a b c d : EReal} (h1 : a = c) (h2 : b = d) : a + b = c + d := by rw [h1, h2]
theorem sub_congr {a b c d : EReal} (h1 : a = c) (h2 : b = d) : a - b = c - d := by rw [h1, h2]
theorem mul_congr {a b c d : EReal} (h1 : a = c) (h2 : b = d) : a * b = c * d := by rw [h1, h2]
theorem max_congr {a b c d : EReal} (h1 : a = c) (h2 : b = d) : max a b = max c d := by rw [h1, h2]

/-! ## The block's energy, score and new maximum -/

/-- The block's energy at row p, step r, hidden unit h (x1 is the transposed weight, indexed (d, h)). -/
def eB (x0 : Vec Ideal S16x256x512 .f32) (x1 : Vec Ideal S512x512 .bf16) (x2 : Vec Ideal S512 .f32)
    (p : Fin 16) (r : Fin 256) (h : Fin 512) : EReal :=
  Ideal.tanh (∑ d : Fin 512, (x0 (ix3 p r d) : EReal) * (x1 (ix2 d h) : EReal) + (x2 (ix1 h) : EReal))

/-- The block's score at row p, step r. -/
def sB (x0 : Vec Ideal S16x256x512 .f32) (x1 : Vec Ideal S512x512 .bf16) (x2 x3 : Vec Ideal S512 .f32)
    (x4 : Vec Ideal S1 .f32) (p : Fin 16) (r : Fin 256) : EReal :=
  ∑ h : Fin 512, eB x0 x1 x2 p r h * (x3 (ix1 h) : EReal) + (x4 (ix1 (0 : Fin 1)) : EReal)

/-- The new running maximum of row p: the old one against the block's largest score. -/
def mN (x0 : Vec Ideal S16x256x512 .f32) (x1 : Vec Ideal S512x512 .bf16) (x2 x3 : Vec Ideal S512 .f32)
    (x4 : Vec Ideal S1 .f32) (mo : Vec Ideal S16x1 .f32) (p : Fin 16) : EReal :=
  max (mo (ix2 p (0 : Fin 1)) : EReal)
    ((Finset.univ : Finset (Fin 256)).fold max (⊥ : EReal) (fun r => sB x0 x1 x2 x3 x4 p r))

/-! ## The payloads at an index -/

section Payloads
variable (x0 : Vec Ideal S16x256x512 .f32) (x1 : Vec Ideal S512x512 .bf16) (x2 x3 : Vec Ideal S512 .f32)
  (x4 : Vec Ideal S1 .f32) (mo lo : Vec Ideal S16x1 .f32) (ao a : Vec Ideal S16x512 .f32) (l : Vec Ideal S16x1 .f32)
  (p : Fin 16) (r : Fin 256) (h : Fin 512)

/-- The energy payload: the block viewed as 4096 rows, multiplied by the weight, plus the bias row, through tanh, viewed
    back as 16 × 256 rows. Row (p, r) of the block is row 256·p + r of the product. -/
theorem pay8_apply : k0_pay8 x0 x1 x2 (ix3 p r h) = eB x0 x1 x2 p r h := by
  have hlt : p.val * 256 + r.val < 4096 := by have := p.isLt; have := r.isLt; omega
  unfold k0_pay8 eB
  refine (cast_mc_abc_apply _ shapeCasts_S4096x512_S16x256x512 p r h ⟨p.val * 256 + r.val, hlt⟩ rfl).trans ?_
  refine (tanh_apply _ _).trans (congrArg Ideal.tanh ?_)
  refine (addf_apply _ _ _).trans (add_congr ?_ ?_)
  · refine (mm1_apply _ _ ⟨p.val * 256 + r.val, hlt⟩ h).trans (Finset.sum_congr rfl fun d _ => mul_congr ?_ ?_)
    · refine (truncf_apply (ψ := .bf16) _ bitsLt_bf16_f32 _).trans ?_
      exact cast_abc_mc_apply x0 shapeCasts_S16x256x512_S4096x512 p r d ⟨p.val * 256 + r.val, hlt⟩ rfl
    · exact congrFun (shapeCast_self x1 shapeCasts_S512x512_S512x512) (ix2 d h)
  · exact (broadcastTo_1b_ab_apply _ broadcasts_S1x512_S4096x512 ⟨p.val * 256 + r.val, hlt⟩ h).trans
      (shapeCast_a_1a_apply x2 shapeCasts_S512_S1x512 (0 : Fin 1) h)

/-- The score payload: the energies against the scoring vector, summed over the hidden units, plus the bias. -/
theorem pay9_apply : k0_pay9 x0 x1 x2 x3 x4 (ix2 p r) = sB x0 x1 x2 x3 x4 p r := by
  unfold k0_pay9 sB
  refine (addf_apply _ _ _).trans (add_congr ?_ ?_)
  · refine (sum_lane3 _ reduces_S16x256x512_S16x256 (.inl rfl) rfl p r).trans (Finset.sum_congr rfl fun k _ => ?_)
    refine (mulf_apply _ _ _).trans (mul_congr (pay8_apply x0 x1 x2 p r k) ?_)
    refine (bcast_11c_abc_apply _ broadcasts_S1x1x512_S16x256x512 p r k).trans ?_
    refine (cast_a_11a_apply _ shapeCasts_S512_S1x1x512 (0 : Fin 1) (0 : Fin 1) k).trans ?_
    exact congrFun (shapeCast_self x3 shapeCasts_S512_S512) (ix1 k)
  · refine (bcast_11_ab_apply _ broadcasts_S1x1_S16x256 p r).trans ?_
    exact shapeCast_a_1a_apply x4 shapeCasts_S1_S1x1 (0 : Fin 1) (0 : Fin 1)

/-- The new maximum payload: the old maximum against the maximum over the block's steps of the scores. -/
theorem pay10_apply : k0_pay10 x0 x1 x2 x3 x4 mo (ix2 p (0 : Fin 1)) = mN x0 x1 x2 x3 x4 mo p := by
  unfold k0_pay10 mN
  refine (maximumf_apply _ _ _).trans (max_congr rfl ?_)
  refine (Cert.LibKeepdims.shapeCast_a_a1_apply _ shapeCasts_S16_S16x1 p (0 : Fin 1)).trans ?_
  refine (max_lane2 _ reduces_S16x256_S16 (.inl rfl) rfl p).trans ?_
  exact congrArg (fun f => (Finset.univ : Finset (Fin 256)).fold max (⊥ : EReal) f)
    (funext fun r' => pay9_apply x0 x1 x2 x3 x4 p r')

/-- The stored new maximum. -/
theorem newMax_apply : k0_pay2 (k0_pay10 x0 x1 x2 x3 x4 mo) (ix2 p (0 : Fin 1)) = mN x0 x1 x2 x3 x4 mo p := by
  unfold k0_pay2
  exact (congrFun (shapeCast_self _ shapeCasts_S16x1_S16x1) (ix2 p (0 : Fin 1))).trans (pay10_apply x0 x1 x2 x3 x4 mo p)

/-- The rescaling factor: exp of a maximum array m' (in use, the old maximum) less the new maximum. -/
theorem pay11_apply (m' : Vec Ideal S16x1 .f32) :
    k0_pay11 x0 x1 x2 x3 x4 mo m' (ix2 p (0 : Fin 1))
      = Ideal.exp ((m' (ix2 p (0 : Fin 1)) : EReal) - mN x0 x1 x2 x3 x4 mo p) := by
  unfold k0_pay11
  refine (exp_apply _ _).trans (congrArg Ideal.exp ?_)
  exact (subf_apply _ _ _).trans (sub_congr rfl (pay10_apply x0 x1 x2 x3 x4 mo p))

/-- The block's unnormalised weights: exp of the score less the new maximum of its row. -/
theorem pay12_apply :
    k0_pay12 x0 x1 x2 x3 x4 mo (ix2 p r) = Ideal.exp (sB x0 x1 x2 x3 x4 p r - mN x0 x1 x2 x3 x4 mo p) := by
  unfold k0_pay12
  refine (exp_apply _ _).trans (congrArg Ideal.exp ?_)
  refine (subf_apply _ _ _).trans (sub_congr (pay9_apply x0 x1 x2 x3 x4 p r) ?_)
  exact (Cert.LibKeepdims.broadcastTo_a1_ab_apply _ broadcasts_S16x1_S16x256 p r).trans
    (pay10_apply x0 x1 x2 x3 x4 mo p)

/-- The block's weights summed over its steps. -/
theorem pay13_apply :
    k0_pay13 x0 x1 x2 x3 x4 mo (ix2 p (0 : Fin 1))
      = ∑ r' : Fin 256, Ideal.exp (sB x0 x1 x2 x3 x4 p r' - mN x0 x1 x2 x3 x4 mo p) := by
  unfold k0_pay13
  refine (Cert.LibKeepdims.shapeCast_a_a1_apply _ shapeCasts_S16_S16x1 p (0 : Fin 1)).trans ?_
  exact (sum_lane2 _ reduces_S16x256_S16 (.inl rfl) rfl p).trans
    (Finset.sum_congr rfl fun r' _ => pay12_apply x0 x1 x2 x3 x4 mo p r')

/-- The stored new denominator: the old one rescaled, plus the block's summed weights. -/
theorem newDen_apply :
    k0_pay3 (k0_pay11 x0 x1 x2 x3 x4 mo mo) (k0_pay13 x0 x1 x2 x3 x4 mo) lo (ix2 p (0 : Fin 1))
      = Ideal.exp ((mo (ix2 p (0 : Fin 1)) : EReal) - mN x0 x1 x2 x3 x4 mo p) * (lo (ix2 p (0 : Fin 1)) : EReal)
        + ∑ r' : Fin 256, Ideal.exp (sB x0 x1 x2 x3 x4 p r' - mN x0 x1 x2 x3 x4 mo p) := by
  unfold k0_pay3
  refine (congrFun (shapeCast_self _ shapeCasts_S16x1_S16x1) (ix2 p (0 : Fin 1))).trans ?_
  refine (addf_apply _ _ _).trans (add_congr ?_ (pay13_apply x0 x1 x2 x3 x4 mo p))
  exact (mulf_apply _ _ _).trans (mul_congr (pay11_apply x0 x1 x2 x3 x4 mo p mo) rfl)

/-- The stored new accumulator: the old one rescaled, plus the block's weights against its energies, summed over the
    block's steps (the batched product contracts the step axis). -/
theorem newAcc_apply :
    k0_pay1 (k0_pay8 x0 x1 x2) (k0_pay11 x0 x1 x2 x3 x4 mo mo) (k0_pay12 x0 x1 x2 x3 x4 mo) ao (ix2 p h)
      = Ideal.exp ((mo (ix2 p (0 : Fin 1)) : EReal) - mN x0 x1 x2 x3 x4 mo p) * (ao (ix2 p h) : EReal)
        + ∑ r' : Fin 256, Ideal.exp (sB x0 x1 x2 x3 x4 p r' - mN x0 x1 x2 x3 x4 mo p) * eB x0 x1 x2 p r' h := by
  unfold k0_pay1
  refine (congrFun (shapeCast_self _ shapeCasts_S16x512_S16x512) (ix2 p h)).trans ?_
  refine (addf_apply _ _ _).trans (add_congr ?_ ?_)
  · refine (mulf_apply _ _ _).trans (mul_congr ?_ rfl)
    exact (Cert.LibKeepdims.broadcastTo_a1_ab_apply _ broadcasts_S16x1_S16x512 p h).trans
      (pay11_apply x0 x1 x2 x3 x4 mo p mo)
  · refine (cast_a1b_ab_apply _ shapeCasts_S16x1x512_S16x512 p h).trans ?_
    refine (mm2_apply _ _ p (0 : Fin 1) h).trans (Finset.sum_congr rfl fun r' _ => mul_congr ?_ ?_)
    · refine (cast_ab_a1b_apply _ shapeCasts_S16x256_S16x1x256 p (0 : Fin 1) r').trans ?_
      exact (truncf_apply (ψ := .bf16) _ bitsLt_bf16_f32 _).trans (pay12_apply x0 x1 x2 x3 x4 mo p r')
    · exact (truncf_apply (ψ := .bf16) _ bitsLt_bf16_f32 _).trans (pay8_apply x0 x1 x2 p r' h)

/-- The final quotient: the accumulator over the denominator of its row. -/
theorem pay4_apply : k0_pay4 a l (ix2 p h) = Ideal.div (a (ix2 p h)) (l (ix2 p (0 : Fin 1))) := by
  unfold k0_pay4
  exact (divf_apply _ _ _).trans
    (congrArg (Ideal.div (a (ix2 p h))) (Cert.LibKeepdims.broadcastTo_a1_ab_apply l broadcasts_S16x1_S16x512 p h))

end Payloads

/-- The initial maximum is −∞ everywhere. -/
theorem pay5_apply (i : S16x1.Idx) : k0_pay5 (F := Ideal) i = (⊥ : EReal) := by
  unfold k0_pay5
  exact (congrFun (shapeCast_self _ shapeCasts_S16x1_S16x1) i).trans ofBits_neg_inf

/-- The initial denominator is 0 everywhere. -/
theorem pay6_apply (i : S16x1.Idx) : k0_pay6 (F := Ideal) i = (0 : EReal) := by
  unfold k0_pay6
  exact (congrFun (shapeCast_self _ shapeCasts_S16x1_S16x1) i).trans Ideal.ofBits_zero_f32

/-- The initial accumulator is 0 everywhere. -/
theorem pay7_apply (i : S16x512.Idx) : k0_pay7 (F := Ideal) i = (0 : EReal) := by
  unfold k0_pay7
  exact (congrFun (shapeCast_self _ shapeCasts_S16x512_S16x512) i).trans Ideal.ofBits_zero_f32

end Cert.AttnPool.PayIdx

end
-- ==== Proof.Blocks.lean ====
/-
  The windows of the pooled-attention kernel: what each input block holds of the argument arrays, and the result
  array as the union of the blocks the output window writes back.

  The grid has 32 points t with coordinates (t / 16, t % 16). Point t stages rows 16·(t/16) … +15 and time steps
  256·(t%16) … +255 of the features, the whole of the weight (transposed and converted before the region, the
  conversion the identity here), of the two vectors (the scoring row reshaped to a vector before the region) and of the
  scalar; the result's block of rows 16·(t/16) … +15 is written back at the points with t % 16 = 15.
-/
import proofs.«112554_j26792005993026_2_alg».proof.Proof.Gen.KernelIdeal.Value
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.AttnPool.Blocks

open Cert.KernelIdeal Cert.KernelIdeal.Gen Idealize.ShloMosaic Idealize.ShloMosaic.TcCoe Idealize.ShloMosaic.ValueIdx
  Idealize.SL.Sem

variable (m : (ℓ : Loc nD τ sig) → Buf (Elt Ideal) ℓ) (c : Dev nD)

/-! ## The index maps -/

/-- The block index of every window at every grid point: the features' block moves with both grid coordinates, the
    result's with the first, the other four windows stay at block zero. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 2) = 0 ∧ win0_1.index t (1 : Fin 2) = 0
    ∧ win0_2.index t (0 : Fin 1) = 0 ∧ win0_3.index t (0 : Fin 1) = 0 ∧ win0_4.index t (0 : Fin 1) = 0
    ∧ win0_5.index t (0 : Fin 2) = t.val / 16 ∧ win0_5.index t (1 : Fin 2) = 0 :=
  (by decide +kernel : ∀ t : Fin grid0.N, _)

/-! ## The input blocks at an index -/

/-- The features' block at point t: rows 16·(t/16) + p, time steps 256·(t%16) + r. -/
theorem blk0 (t : Fin cfg0.N) (p : Fin 16) (r : Fin 256) (d : Fin 512) :
    (iblk m c 0 t : Vec Ideal S16x256x512 .f32) (ix3 p r d)
      = m ((c : Thread nD τ).loc main_arg0)
          (ix3 (⟨16 * (t.val / 16) + p.val, by
                  have hN : cfg0.N = 32 := N_0
                  have ht := t.isLt; have hp := p.isLt; omega⟩ : Fin 32)
            (⟨256 * (t.val % 16) + r.val, by have hr := r.isLt; omega⟩ : Fin 4096) d) := by
  obtain ⟨e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 16 + 1 * p.val = 16 * (t.val / 16) + p.val; rw [e0]; omega
  | ⟨1, _⟩ => show win0_0.index t 1 * 256 + 1 * r.val = 256 * (t.val % 16) + r.val; rw [e1]; omega
  | ⟨2, _⟩ => show win0_0.index t 2 * 512 + 1 * d.val = d.val; rw [e2]; omega

/-- The weight's block, whole at every point: the transposed weight; the conversion before the region is the identity
    on extended reals. -/
theorem blk1 (t : Fin cfg0.N) (d h : Fin 512) :
    (iblk m c 1 t : Vec Ideal S512x512 .bf16) (ix2 d h) = m ((c : Thread nD τ).loc main_arg1) (ix2 h d) := by
  obtain ⟨-, -, -, e0, e1, -⟩ := idx_facts t
  have eV : (V m c main_v1 : S512x512.Idx → EReal)
      = (truncf (F := Ideal) .bf16
          (transpose S512x512 [1, 0] (m ((c : Thread nD τ).loc main_arg1)) transposes_S512x512_S512x512_1_0)
          bitsLt_bf16_f32 : S512x512.Idx → EReal) := by
    dsimp only [Gen.V, Gen.hostOps0]; after_results
  have hemb : ((cfg0.win 1).blk t).view.emb (ix2 d h) = ix2 d h := by
    funext a
    apply Fin.ext
    match a with
    | ⟨0, _⟩ => show win0_1.index t 0 * 512 + 1 * d.val = d.val; rw [e0]; omega
    | ⟨1, _⟩ => show win0_1.index t 1 * 512 + 1 * h.val = h.val; rw [e1]; omega
  unfold iblk
  rw [View.read_apply, hemb]
  show (V m c main_v1 : S512x512.Idx → EReal) (ix2 d h) = _
  rw [eV, truncf_apply]
  exact transpose_apply [1, 0] _ transposes_S512x512_S512x512_1_0 (ix2 d h) (ix2 h d) (fun b => match b with
    | ⟨0, _⟩ => rfl
    | ⟨1, _⟩ => rfl)

/-- The energy bias's block, whole at every point. -/
theorem blk2 (t : Fin cfg0.N) (h : Fin 512) :
    (iblk m c 2 t : Vec Ideal S512 .f32) (ix1 h) = m ((c : Thread nD τ).loc main_arg2) (ix1 h) := by
  obtain ⟨-, -, -, -, -, e, -⟩ := idx_facts t
  unfold iblk
  rw [View.read_apply]
  show V m c main_arg2 _ = m (c.tc.loc main_arg2) _
  rw [V_main_arg2]
  congr 1
  funext a
  apply Fin.ext
  match a with
  | ⟨0, _⟩ => show win0_2.index t 0 * 512 + 1 * h.val = h.val; rw [e]; omega

/-- The scoring vector's block, whole at every point: the scoring row, reshaped to a vector before the region. -/
theorem blk3 (t : Fin cfg0.N) (h : Fin 512) :
    (iblk m c 3 t : Vec Ideal S512 .f32) (ix1 h) = m ((c : Thread nD τ).loc main_arg3) (ix2 (0 : Fin 1) h) := by
  obtain ⟨-, -, -, -, -, -, e, -⟩ := idx_facts t
  have eV : (V m c main_v2 : S512.Idx → EReal)
      = (shapeCast S512 (m ((c : Thread nD τ).loc main_arg3)) shapeCasts_S1x512_S512 : S512.Idx → EReal) := by
    dsimp only [Gen.V, Gen.hostOps0]; after_results; rfl
  have hemb : ((cfg0.win 3).blk t).view.emb (ix1 h) = ix1 h := by
    funext a
    apply Fin.ext
    match a with
    | ⟨0, _⟩ => show win0_3.index t 0 * 512 + 1 * h.val = h.val; rw [e]; omega
  unfold iblk
  rw [View.read_apply, hemb]
  show (V m c main_v2 : S512.Idx → EReal) (ix1 h) = _
  rw [eV]
  exact shapeCast_apply _ shapeCasts_S1x512_S512 (ix1 h) (ix2 (0 : Fin 1) h) (by
    rw [Shape.rowMajor_val_two, Shape.rowMajor_val_one]
    show 0 * 512 + h.val = h.val
    omega)

/-- The scoring bias's block, whole at every point. -/
theorem blk4 (t : Fin cfg0.N) :
    (iblk m c 4 t : Vec Ideal S1 .f32) (ix1 (0 : Fin 1)) = m ((c : Thread nD τ).loc main_arg4) (ix1 (0 : Fin 1)) := by
  obtain ⟨-, -, -, -, -, -, -, e, -⟩ := idx_facts t
  unfold iblk
  rw [View.read_apply]
  show V m c main_arg4 _ = m (c.tc.loc main_arg4) _
  rw [V_main_arg4]
  congr 1
  funext a
  apply Fin.ext
  match a with
  | ⟨0, _⟩ => show win0_4.index t 0 * 1 + 1 * 0 = 0; rw [e]

/-! ## From the output blocks to the array -/

/-- An index of the result array is in point t's block iff each coordinate is in the block's range on its axis. -/
theorem mem_blk5 (t : Fin cfg0.N) (i : S32x512.Idx) :
    i ∈ ((cfg0.win 5).blk t).view.set
      ↔ ∀ a : Fin 2, win0_5.index t a * S16x512.size a ≤ (i a).val
          ∧ (i a).val < win0_5.index t a * S16x512.size a + S16x512.size a := by
  show i ∈ ((View.whole main_v3).slice (win0_5.rect t)).set ↔ _
  rw [View.set_slice_whole, Rect.mem_set_unit]
  exact Iff.rfl

/-- The result array after the run is any function Gf whose rows 16·(t/16) … +15 are what the output window's staging
    buffer holds at each point t that writes back (those with t % 16 = 15): these blocks tile the array. -/
theorem final_of_out (Gf : S32x512.Idx → EReal)
    (hout : ∀ t : Fin cfg0.N, t.val % 16 = 15 → ∀ (p : Fin 16) (h : Fin 512),
      (outsAt0 m c t.val t.isLt).1 (ix2 p h)
        = Gf (ix2 (⟨16 * (t.val / 16) + p.val, by
                have hN : cfg0.N = 32 := N_0
                have ht := t.isLt; have hp := p.isLt; omega⟩ : Fin 32) h)) :
    (dats m 0 c).arrAt 5 cfg0.N = Gf := by
  have hN : cfg0.N = 32 := N_0
  refine (dats m 0 c).arrAt_eq_of_cover 5 Gf (fun t hf => ?_) (fun (i : S32x512.Idx) => ?_)
  · have h15 : t.val % 16 = 15 := (flush0_5 t).mp hf
    obtain ⟨-, -, -, -, -, -, -, -, e0, e1⟩ := idx_facts t
    rw [Cert.KernelIdeal.Value.flushed5]
    apply funext
    intro (j : S16x512.Idx)
    obtain ⟨p, h, rfl⟩ : ∃ (p : Fin 16) (h : Fin 512), j = ix2 p h := ⟨j 0, j 1, eq_ix2 j⟩
    rw [View.read_apply]
    show (outsAt0 m c t.val t.isLt).1 (ix2 p h) = Gf (((cfg0.win 5).blk t).view.emb (ix2 p h))
    rw [hout t h15 p h]
    congr 1
    funext a
    apply Fin.ext
    match a with
    | ⟨0, _⟩ => show 16 * (t.val / 16) + p.val = win0_5.index t 0 * 16 + 1 * p.val; rw [e0]; omega
    | ⟨1, _⟩ => show h.val = win0_5.index t 1 * 512 + 1 * h.val; rw [e1]; omega
  · have hi0 : (i 0).val < 32 := (i 0).isLt
    have hi1 : (i 1).val < 512 := (i 1).isLt
    obtain ⟨t, ht⟩ : ∃ t : Fin cfg0.N, t.val = 16 * ((i 0).val / 16) + 15 := ⟨⟨_, by omega⟩, rfl⟩
    obtain ⟨-, -, -, -, -, -, -, -, e0, e1⟩ := idx_facts t
    refine ⟨t, (flush0_5 t).mpr (by omega), ?_⟩
    rw [mem_blk5]
    intro a
    match a with
    | ⟨0, _⟩ =>
      show win0_5.index t 0 * 16 ≤ (i 0).val ∧ (i 0).val < win0_5.index t 0 * 16 + 16
      rw [e0]; omega
    | ⟨1, _⟩ =>
      show win0_5.index t 1 * 512 ≤ (i 1).val ∧ (i 1).val < win0_5.index t 1 * 512 + 512
      rw [e1]; omega

end Cert.AttnPool.Blocks

end
-- ==== Proof.SpecLaws.lean ====
/-
  The two real-number laws that join a softmax computed block by block, with a running shift, to the plain softmax.

  Time steps 0 … 4095 come in 16 blocks of 256. A function of the time step is extended by zero to all naturals, so that
  "the sum over the steps seen so far" is a sum over an initial segment of ℕ, and taking one more block is splitting a
  segment in two.

  Rescaling: if a partial sum Σ exp(s t − c)·e t over the first K steps was formed with the shift c, multiplying it by
  exp(c − c') re-expresses it with the shift c', and adding the next block's terms at the shift c' gives the partial sum
  over K + 256 steps at c'. Nothing is assumed of c and c' (no maximum is needed).

  Ratio: (Σ exp(s t − c)·e t) / (Σ exp(s t − c)) does not depend on c, and equals Σ (exp(s t)/Σ exp(s t'))·e t.
-/
import Idealize.ShloMosaic.PureOps.Ideal

noncomputable section

open scoped BigOperators

namespace Cert.AttnPool

/-- A function of the time step, extended by zero to every natural number. -/
def ext (f : Fin 4096 → ℝ) : ℕ → ℝ := fun n => if h : n < 4096 then f ⟨n, h⟩ else 0

theorem ext_of_lt (f : Fin 4096 → ℝ) (n : ℕ) (h : n < 4096) : ext f n = f ⟨n, h⟩ := dif_pos h

/-- The sum of the extension over all 4096 steps is the sum over the time steps. -/
theorem sum_range_ext (f : Fin 4096 → ℝ) : ∑ n ∈ Finset.range 4096, ext f n = ∑ t : Fin 4096, f t := by
  rw [← Fin.sum_univ_eq_sum_range (fun n => ext f n) 4096]
  exact Finset.sum_congr rfl fun t _ => ext_of_lt f t.val t.isLt

/-- One more block: the segment of K + 256 steps is the segment of K steps and the block that starts at K. -/
theorem sum_range_block (f : Fin 4096 → ℝ) (K : ℕ) (hK : K + 256 ≤ 4096) :
    ∑ n ∈ Finset.range (K + 256), ext f n
      = ∑ n ∈ Finset.range K, ext f n + ∑ r : Fin 256, f ⟨K + r.val, by have := r.isLt; omega⟩ := by
  rw [Finset.sum_range_add, ← Fin.sum_univ_eq_sum_range (fun n => ext f (K + n)) 256]
  congr 1
  exact Finset.sum_congr rfl fun r _ => ext_of_lt f (K + r.val) (by have := r.isLt; omega)

/-- Rescaling a partial sum from the shift `c` to the shift `c'` and taking in the next block at `c'`. -/
theorem rescale_step (s e : Fin 4096 → ℝ) (c c' : ℝ) (K : ℕ) (hK : K + 256 ≤ 4096) :
    Real.exp (c - c') * (∑ n ∈ Finset.range K, ext (fun t => Real.exp (s t - c) * e t) n)
        + ∑ r : Fin 256, Real.exp (s ⟨K + r.val, by have := r.isLt; omega⟩ - c') * e ⟨K + r.val, by have := r.isLt; omega⟩
      = ∑ n ∈ Finset.range (K + 256), ext (fun t => Real.exp (s t - c') * e t) n := by
  rw [sum_range_block (fun t => Real.exp (s t - c') * e t) K hK, Finset.mul_sum]
  congr 1
  refine Finset.sum_congr rfl fun n _ => ?_
  unfold ext
  split
  · rw [← mul_assoc, ← Real.exp_add]; congr 2; ring
  · exact mul_zero _

/-- The first block: nothing seen before it, so the partial sum is the block's own. -/
theorem first_block (s e : Fin 4096 → ℝ) (c' : ℝ) :
    ∑ r : Fin 256, Real.exp (s ⟨r.val, by have := r.isLt; omega⟩ - c') * e ⟨r.val, by have := r.isLt; omega⟩
      = ∑ n ∈ Finset.range 256, ext (fun t => Real.exp (s t - c') * e t) n := by
  have h := sum_range_block (fun t => Real.exp (s t - c') * e t) 0 (by omega)
  simp only [Nat.zero_add, Finset.range_zero, Finset.sum_empty, zero_add] at h
  exact h.symm

/-- The ratio of the shifted sums is the softmax-weighted sum, whatever the shift. -/
theorem pool_ratio {ι : Type} [Fintype ι] (s e : ι → ℝ) (c : ℝ) :
    (∑ t, Real.exp (s t - c) * e t) / (∑ t, Real.exp (s t - c))
      = ∑ t, (Real.exp (s t) / ∑ t', Real.exp (s t')) * e t := by
  have hc : Real.exp (-c) ≠ 0 := (Real.exp_pos _).ne'
  have h1 : ∀ t, Real.exp (s t - c) = Real.exp (s t) * Real.exp (-c) := fun t => by
    rw [sub_eq_add_neg, Real.exp_add]
  simp only [h1]
  rw [← Finset.sum_mul, show (∑ t, Real.exp (s t) * Real.exp (-c) * e t) = (∑ t, Real.exp (s t) * e t) * Real.exp (-c) from by
    rw [Finset.sum_mul]; exact Finset.sum_congr rfl fun t _ => by ring]
  rw [mul_div_mul_right _ _ hc, Finset.sum_div]
  exact Finset.sum_congr rfl fun t _ => by rw [div_mul_eq_mul_div]

/-- The partial sum of exponentials over a nonempty segment is positive. -/
theorem sum_exp_pos (s : Fin 4096 → ℝ) (c : ℝ) (K : ℕ) (h0 : 0 < K) (hK : K ≤ 4096) :
    0 < ∑ n ∈ Finset.range K, ext (fun t => Real.exp (s t - c)) n := by
  refine Finset.sum_pos (fun n hn => ?_) ⟨0, Finset.mem_range.mpr h0⟩
  have hn' : n < 4096 := lt_of_lt_of_le (Finset.mem_range.mp hn) hK
  rw [ext_of_lt _ n hn']; exact Real.exp_pos _

end Cert.AttnPool

end
-- ==== Proof.LibEReal.lean ====
/-
  General facts about extended reals, for programs read at exact (extended-real) arithmetic whose values are real numbers
  except for a −∞ a running maximum starts from.

  The operations on coerced reals are the coerced real operations: a finite sum (coe_sum), exp of a difference
  (exp_coe_sub), a quotient by a nonzero real (div_coe_coe), max (max_coe_coe). A maximum folded from −∞ over a nonempty
  finite family of reals is a real (fold_max_real), and max(−∞, c) = c (max_bot_coe). The rescaling factor of a first
  block, exp(−∞ − c), is 0 (exp_bot_sub). The f32 pattern 0xFF800000 is −∞ (ofBits_neg_inf).
-/
import Idealize.ShloMosaic.PureOps.Ideal
import Idealize.ShloMosaic.PureOps.Ideal.Laws

noncomputable section

open scoped BigOperators

namespace Cert.LibEReal

open Idealize.ShloMosaic

/-- A finite sum of coerced reals is the coerced sum. -/
theorem coe_sum {ι : Type} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- exp of a difference of reals. -/
theorem exp_coe_sub (a b : ℝ) : Ideal.exp ((a : EReal) - (b : EReal)) = ((Real.exp (a - b) : ℝ) : EReal) := by
  rw [← EReal.coe_sub]; rfl

/-- The first block's rescaling factor: exp(−∞ − c) = 0. -/
theorem exp_bot_sub (b : ℝ) : Ideal.exp ((⊥ : EReal) - (b : EReal)) = 0 := by
  rw [EReal.bot_sub]; rfl

/-- A quotient of reals by a nonzero real. -/
theorem div_coe_coe (a l : ℝ) (hl : l ≠ 0) : Ideal.div (a : EReal) (l : EReal) = ((a / l : ℝ) : EReal) := by
  rw [Ideal.div_coe hl, ← EReal.coe_mul]; congr 1; rw [mul_one_div]

/-- The f32 pattern of −∞ is the bottom element. -/
theorem ofBits_neg_inf : Ideal.ofBits .f32 0xFF800000#32 = (⊥ : EReal) := by simp [Ideal.ofBits, Ideal.ieee]

/-- A maximum folded from −∞ over a nonempty finite family of reals is a real. -/
theorem fold_max_real {ι : Type} [Fintype ι] [Nonempty ι] (f : ι → ℝ) :
    ∃ c : ℝ, (Finset.univ : Finset ι).fold max (⊥ : EReal) (fun k => ((f k : ℝ) : EReal)) = (c : EReal) := by
  have hlt : (Finset.univ : Finset ι).fold max (⊥ : EReal) (fun k => ((f k : ℝ) : EReal)) < ⊤ :=
    (Finset.fold_max_lt ⊤).mpr ⟨bot_lt_top, fun k _ => EReal.coe_lt_top _⟩
  have hgt : (⊥ : EReal) < (Finset.univ : Finset ι).fold max (⊥ : EReal) (fun k => ((f k : ℝ) : EReal)) :=
    (Finset.lt_fold_max ⊥).mpr (Or.inr ⟨Classical.arbitrary ι, Finset.mem_univ _, EReal.bot_lt_coe _⟩)
  exact ⟨_, (EReal.coe_toReal hlt.ne hgt.ne').symm⟩

/-- The running maximum after a block: from −∞ or from a real, against a real block maximum, it is a real. -/
theorem max_bot_coe (c : ℝ) : max (⊥ : EReal) (c : EReal) = (c : EReal) := max_bot_left _
theorem max_coe_coe (a b : ℝ) : max (a : EReal) (b : EReal) = ((max a b : ℝ) : EReal) := (EReal.coe_strictMono.monotone.map_max).symm

end Cert.LibEReal

end
-- ==== Proof.RowStep.lean ====
/-
  One batch row of the block-by-block softmax pooling, as an invariant and its three steps.

  For a row with scores s(t) and energies e(t,h), after the first K time steps the three running quantities are
     the shift   m = c                          (some real number c: it is the running maximum, but only its finiteness is used),
     the denominator   l = Σ_{t < K} exp(s t − c),
     the weighted sums a(h) = Σ_{t < K} exp(s t − c) · e(t,h).
  (RowOK.)  The first block establishes this from the reset values −∞, 0, 0: its rescaling factor exp(−∞ − c') is 0 and
  multiplies 0.  A later block takes the shift from c to c' = max(c, block maximum), rescales both sums by exp(c − c')
  and adds the block's terms at the shift c' (SpecLaws.rescale_step).  After all 4096 steps, a(h) / l is the
  softmax-weighted sum of the energies (SpecLaws.pool_ratio), the denominator being a positive real.
-/
import proofs.«112554_j26792005993026_2_alg».proof.Proof.SpecLaws
import proofs.«112554_j26792005993026_2_alg».proof.Proof.LibEReal

noncomputable section

open scoped BigOperators

namespace Cert.AttnPool

open Idealize.ShloMosaic Cert.LibEReal

/-- The running shift, denominator and weighted sums of one row after its first `K` time steps. -/
def RowOK (s : Fin 4096 → ℝ) (e : Fin 4096 → Fin 512 → ℝ) (K : ℕ) (mv lv : EReal) (av : Fin 512 → EReal) : Prop :=
  ∃ cc : ℝ, mv = (cc : EReal)
    ∧ lv = ((∑ n ∈ Finset.range K, ext (fun t => Real.exp (s t - cc)) n : ℝ) : EReal)
    ∧ ∀ h, av h = ((∑ n ∈ Finset.range K, ext (fun t => Real.exp (s t - cc) * e t h) n : ℝ) : EReal)

/-- The partial sums of plain exponentials are the weighted ones at weight 1. -/
theorem rescale_step_one (s : Fin 4096 → ℝ) (c c' : ℝ) (K : ℕ) (hK : K + 256 ≤ 4096) :
    Real.exp (c - c') * (∑ n ∈ Finset.range K, ext (fun t => Real.exp (s t - c)) n)
        + ∑ r : Fin 256, Real.exp (s ⟨K + r.val, by have := r.isLt; omega⟩ - c')
      = ∑ n ∈ Finset.range (K + 256), ext (fun t => Real.exp (s t - c')) n := by
  have h := rescale_step s (fun _ => 1) c c' K hK
  simp only [mul_one] at h
  exact h

theorem first_block_one (s : Fin 4096 → ℝ) (c' : ℝ) :
    ∑ r : Fin 256, Real.exp (s ⟨r.val, by have := r.isLt; omega⟩ - c')
      = ∑ n ∈ Finset.range 256, ext (fun t => Real.exp (s t - c')) n := by
  have h := first_block s (fun _ => 1) c'
  simp only [mul_one] at h
  exact h

/-- A row's first block, from the reset values −∞, 0, 0. -/
theorem rowOK_first (s : Fin 4096 → ℝ) (e : Fin 4096 → Fin 512 → ℝ) (sBv : Fin 256 → EReal) (eBv : Fin 256 → Fin 512 → EReal)
    (hs : ∀ r : Fin 256, sBv r = ((s ⟨r.val, by have := r.isLt; omega⟩ : ℝ) : EReal))
    (he : ∀ (r : Fin 256) (h : Fin 512), eBv r h = ((e ⟨r.val, by have := r.isLt; omega⟩ h : ℝ) : EReal))
    (M : EReal) (hM : M = max (⊥ : EReal) ((Finset.univ : Finset (Fin 256)).fold max (⊥ : EReal) sBv)) :
    RowOK s e 256 M (Ideal.exp ((⊥ : EReal) - M) * 0 + ∑ r : Fin 256, Ideal.exp (sBv r - M))
      (fun h => Ideal.exp ((⊥ : EReal) - M) * 0 + ∑ r : Fin 256, Ideal.exp (sBv r - M) * eBv r h) := by
  obtain rfl : sBv = fun r : Fin 256 => ((s ⟨r.val, by have := r.isLt; omega⟩ : ℝ) : EReal) := funext hs
  obtain ⟨bm, hbm⟩ := fold_max_real (fun r : Fin 256 => s ⟨r.val, by have := r.isLt; omega⟩)
  rw [hbm, max_bot_coe] at hM
  subst hM
  refine ⟨bm, rfl, ?_, fun h => ?_⟩
  · rw [exp_bot_sub, zero_mul, zero_add]
    simp only [exp_coe_sub]
    rw [coe_sum, first_block_one]
  · dsimp only
    rw [exp_bot_sub, zero_mul, zero_add]
    simp only [he, exp_coe_sub, ← EReal.coe_mul]
    rw [coe_sum, first_block s (fun t => e t h) bm]

/-- A later block: from the state after `K` steps to the state after `K + 256`. -/
theorem rowOK_next (s : Fin 4096 → ℝ) (e : Fin 4096 → Fin 512 → ℝ) (K : ℕ) (hK : K + 256 ≤ 4096)
    (mo lo : EReal) (ao : Fin 512 → EReal) (hprev : RowOK s e K mo lo ao)
    (sBv : Fin 256 → EReal) (eBv : Fin 256 → Fin 512 → EReal)
    (hs : ∀ r : Fin 256, sBv r = ((s ⟨K + r.val, by have := r.isLt; omega⟩ : ℝ) : EReal))
    (he : ∀ (r : Fin 256) (h : Fin 512), eBv r h = ((e ⟨K + r.val, by have := r.isLt; omega⟩ h : ℝ) : EReal))
    (M : EReal) (hM : M = max mo ((Finset.univ : Finset (Fin 256)).fold max (⊥ : EReal) sBv)) :
    RowOK s e (K + 256) M (Ideal.exp (mo - M) * lo + ∑ r : Fin 256, Ideal.exp (sBv r - M))
      (fun h => Ideal.exp (mo - M) * ao h + ∑ r : Fin 256, Ideal.exp (sBv r - M) * eBv r h) := by
  obtain ⟨cc, rfl, rfl, ha⟩ := hprev
  obtain rfl : sBv = fun r : Fin 256 => ((s ⟨K + r.val, by have := r.isLt; omega⟩ : ℝ) : EReal) := funext hs
  obtain ⟨bm, hbm⟩ := fold_max_real (fun r : Fin 256 => s ⟨K + r.val, by have := r.isLt; omega⟩)
  rw [hbm, max_coe_coe] at hM
  subst hM
  refine ⟨max cc bm, rfl, ?_, fun h => ?_⟩
  · simp only [exp_coe_sub, ← EReal.coe_mul]
    rw [coe_sum, ← EReal.coe_add, rescale_step_one s cc (max cc bm) K hK]
  · dsimp only
    rw [ha h]
    simp only [he, exp_coe_sub, ← EReal.coe_mul]
    rw [coe_sum, ← EReal.coe_add, rescale_step s (fun t => e t h) cc (max cc bm) K hK]

/-- After the last block: the weighted sum over the denominator is the softmax-weighted sum of the energies. -/
theorem rowOK_final (s : Fin 4096 → ℝ) (e : Fin 4096 → Fin 512 → ℝ) (mv lv : EReal) (av : Fin 512 → EReal)
    (hfin : RowOK s e 4096 mv lv av) (h : Fin 512) :
    Ideal.div (av h) lv = ((∑ t : Fin 4096, (Real.exp (s t) / ∑ t' : Fin 4096, Real.exp (s t')) * e t h : ℝ) : EReal) := by
  obtain ⟨cc, -, rfl, ha⟩ := hfin
  have hpos := sum_exp_pos s cc 4096 (by norm_num) le_rfl
  rw [ha h, div_coe_coe _ _ hpos.ne', sum_range_ext, sum_range_ext, pool_ratio]

end Cert.AttnPool

end
-- ==== Proof.Spec.lean ====
/-
  Attention pooling with additive scores, as ONE function of the five argument arrays.

  For a batch row b, a time step t and a hidden unit h, over the reals:
    energy  e(b,t,h) = tanh (Σ_d x(b,t,d) · w(h,d) + wb(h)),
    score   s(b,t)   = Σ_h e(b,t,h) · vw(h) + vb,
    pooled  g(b,h)   = Σ_t (exp s(b,t) / Σ_t' exp s(b,t')) · e(b,t,h).
  The softmax weights are written WITHOUT a subtracted maximum: a softmax does not change when one finite number is
  subtracted from every score of a row, so a program that subtracts a row maximum, or a running maximum updated block by
  block, computes these same weights (SpecLaws.lean has the two forms of that law).

  The extended-real function G reads the real parts of its arguments; where every argument entry is finite (IsReal) it is
  what both programs compute.
-/
import Idealize.ShloMosaic.PureOps.Ideal
import Idealize.ShloMosaic.Lib.ValueIdx

noncomputable section

namespace Cert.AttnPool

open Idealize.ShloMosaic Idealize.ShloMosaic.ValueIdx

/-- Every entry of an extended-real array is a real number. -/
def IsReal {α : Type} (A : α → EReal) : Prop := ∀ i, A i = ((A i).toReal : EReal)

theorem isReal_of_ne {α : Type} (A : α → EReal) (h : ∀ i, A i ≠ ⊤ ∧ A i ≠ ⊥) : IsReal A :=
  fun i => (EReal.coe_toReal (h i).1 (h i).2).symm

/-- The energy: tanh of the affine map of one time step's features. -/
def en (x : Fin 32 → Fin 4096 → Fin 512 → ℝ) (w : Fin 512 → Fin 512 → ℝ) (wb : Fin 512 → ℝ)
    (b : Fin 32) (t : Fin 4096) (h : Fin 512) : ℝ :=
  Real.tanh (∑ d : Fin 512, x b t d * w h d + wb h)

/-- The score of one time step: the energies against the scoring vector, plus its bias. -/
def sc (x : Fin 32 → Fin 4096 → Fin 512 → ℝ) (w : Fin 512 → Fin 512 → ℝ) (wb : Fin 512 → ℝ)
    (vw : Fin 512 → ℝ) (vb : ℝ) (b : Fin 32) (t : Fin 4096) : ℝ :=
  ∑ h : Fin 512, en x w wb b t h * vw h + vb

/-- The pooled energy: the softmax over time of the scores, weighting the energies. -/
def pool (x : Fin 32 → Fin 4096 → Fin 512 → ℝ) (w : Fin 512 → Fin 512 → ℝ) (wb : Fin 512 → ℝ)
    (vw : Fin 512 → ℝ) (vb : ℝ) (b : Fin 32) (h : Fin 512) : ℝ :=
  ∑ t : Fin 4096, (Real.exp (sc x w wb vw vb b t) / ∑ t' : Fin 4096, Real.exp (sc x w wb vw vb b t')) * en x w wb b t h

/-- The real parts of the five argument arrays, by coordinates. -/
def xR (X : (⟨3, ![32, 4096, 512]⟩ : Shape).Idx → EReal) : Fin 32 → Fin 4096 → Fin 512 → ℝ :=
  fun b t d => (X (ix3 b t d)).toReal
def wR (W : (⟨2, ![512, 512]⟩ : Shape).Idx → EReal) : Fin 512 → Fin 512 → ℝ := fun h d => (W (ix2 h d)).toReal
def wbR (Wb : (⟨1, ![512]⟩ : Shape).Idx → EReal) : Fin 512 → ℝ := fun h => (Wb (ix1 h)).toReal
def vwR (Vw : (⟨2, ![1, 512]⟩ : Shape).Idx → EReal) : Fin 512 → ℝ := fun h => (Vw (ix2 (0 : Fin 1) h)).toReal
def vbR (Vb : (⟨1, ![1]⟩ : Shape).Idx → EReal) : ℝ := (Vb (ix1 (0 : Fin 1))).toReal

/-- The result array as one function of the argument arrays, index by index. -/
def G (X : (⟨3, ![32, 4096, 512]⟩ : Shape).Idx → EReal) (W : (⟨2, ![512, 512]⟩ : Shape).Idx → EReal)
    (Wb : (⟨1, ![512]⟩ : Shape).Idx → EReal) (Vw : (⟨2, ![1, 512]⟩ : Shape).Idx → EReal)
    (Vb : (⟨1, ![1]⟩ : Shape).Idx → EReal) : (⟨2, ![32, 512]⟩ : Shape).Idx → EReal :=
  fun i => ((pool (xR X) (wR W) (wbR Wb) (vwR Vw) (vbR Vb) (i 0) (i 1) : ℝ) : EReal)

theorem G_apply (X : (⟨3, ![32, 4096, 512]⟩ : Shape).Idx → EReal) (W : (⟨2, ![512, 512]⟩ : Shape).Idx → EReal)
    (Wb : (⟨1, ![512]⟩ : Shape).Idx → EReal) (Vw : (⟨2, ![1, 512]⟩ : Shape).Idx → EReal)
    (Vb : (⟨1, ![1]⟩ : Shape).Idx → EReal) (b : Fin 32) (h : Fin 512) :
    G X W Wb Vw Vb (ix2 b h) = ((pool (xR X) (wR W) (wbR Wb) (vwR Vw) (vbR Vb) b h : ℝ) : EReal) := rfl

end Cert.AttnPool

end
-- ==== Proof.KernelValue.lean ====
/-
  The kernel's result array is the pooled energy G of the five argument arrays, when every argument entry is finite.

  The grid has 2 × 16 points: point t works on the sixteen batch rows 16·(t / 16) + p and on the time steps
  256·(t % 16) + r of block t % 16. Its input blocks hold, as coerced reals, those entries of x, the transposed weight,
  and the two biases and the scoring vector whole (Blocks.blk0 … blk4 and the finiteness of the arguments). So the block's
  energies and scores are the specification's energies and scores at those rows and steps (eB_real, sB_real).

  The three carried buffers then satisfy, row by row, the invariant of RowStep.lean: after point t every row's shift is a
  real number c and its denominator and weighted sums are the partial sums over the first 256·(t % 16 + 1) steps at the
  shift c (StateOK; inv, by induction on the point: a row's first block by rowOK_first from the reset values, any later
  block by rowOK_next from the point before). At a row's last block, t % 16 = 15, all 4096 steps are in, and the output
  block — the weighted sums divided by the denominator — is the pooled energy (out_eq, by rowOK_final). Those blocks are
  the only ones written back, and they cover the array (Blocks.final_of_out).
-/
import proofs.«112554_j26792005993026_2_alg».proof.Proof.PointState
import proofs.«112554_j26792005993026_2_alg».proof.Proof.PayIdx
import proofs.«112554_j26792005993026_2_alg».proof.Proof.Blocks
import proofs.«112554_j26792005993026_2_alg».proof.Proof.RowStep
import proofs.«112554_j26792005993026_2_alg».proof.Proof.Spec

set_option maxRecDepth 16384

noncomputable section

open scoped BigOperators
open Idealize.ShloMosaic Idealize.ShloMosaic.TcCoe Idealize.ShloMosaic.ValueIdx Idealize.SL.Sem

namespace Cert.AttnPool.KernelValue

open Cert.KernelIdeal Cert.KernelIdeal.Gen Cert.AttnPool.PayIdx Cert.LibEReal

/-! ## One point, over any block contents -/

/-- The five input blocks of a point hold, as reals, the rows 16·bi + p and the steps K + r of the arguments. -/
structure BlockIs (x : Fin 32 → Fin 4096 → Fin 512 → ℝ) (w : Fin 512 → Fin 512 → ℝ) (wb vw : Fin 512 → ℝ) (vb : ℝ) (x0 : Vec Ideal S16x256x512 .f32) (x1 : Vec Ideal S512x512 .bf16) (x2 x3 : Vec Ideal S512 .f32) (x4 : Vec Ideal S1 .f32) (bi : Fin 2) (K : ℕ) (hK : K + 256 ≤ 4096) : Prop where
  h0 : ∀ (p : Fin 16) (r : Fin 256) (d : Fin 512),
    x0 (ix3 p r d) = ((x (⟨16 * bi.val + p.val, by have := bi.isLt; have := p.isLt; omega⟩ : Fin 32) ⟨K + r.val, by have := r.isLt; omega⟩ d : ℝ) : EReal)
  h1 : ∀ (d h : Fin 512), x1 (ix2 d h) = ((w h d : ℝ) : EReal)
  h2 : ∀ h : Fin 512, x2 (ix1 h) = ((wb h : ℝ) : EReal)
  h3 : ∀ h : Fin 512, x3 (ix1 h) = ((vw h : ℝ) : EReal)
  h4 : x4 (ix1 (0 : Fin 1)) = ((vb : ℝ) : EReal)

/-- Every one of the sixteen rows of the carried buffers satisfies the row invariant after `K` steps. -/
def StateOK (x : Fin 32 → Fin 4096 → Fin 512 → ℝ) (w : Fin 512 → Fin 512 → ℝ) (wb vw : Fin 512 → ℝ) (vb : ℝ) (bi : Fin 2) (K : ℕ) (mS lS : Vec Ideal S16x1 .f32) (aS : Vec Ideal S16x512 .f32) : Prop :=
  ∀ p : Fin 16, RowOK (sc x w wb vw vb (⟨16 * bi.val + p.val, by have := bi.isLt; have := p.isLt; omega⟩ : Fin 32)) (en x w wb (⟨16 * bi.val + p.val, by have := bi.isLt; have := p.isLt; omega⟩ : Fin 32)) K
    (mS (ix2 p (0 : Fin 1))) (lS (ix2 p (0 : Fin 1))) (fun h => aS (ix2 p h))

section
variable (x : Fin 32 → Fin 4096 → Fin 512 → ℝ) (w : Fin 512 → Fin 512 → ℝ) (wb vw : Fin 512 → ℝ) (vb : ℝ) (x0 : Vec Ideal S16x256x512 .f32) (x1 : Vec Ideal S512x512 .bf16) (x2 x3 : Vec Ideal S512 .f32) (x4 : Vec Ideal S1 .f32) (bi : Fin 2) (K : ℕ) (hK : K + 256 ≤ 4096)

/-- The block's energies are the specification's, at the block's rows and steps. -/
theorem eB_real (H : BlockIs x w wb vw vb x0 x1 x2 x3 x4 bi K hK) (p : Fin 16) (r : Fin 256) (h : Fin 512) :
    eB x0 x1 x2 p r h = ((en x w wb (⟨16 * bi.val + p.val, by have := bi.isLt; have := p.isLt; omega⟩ : Fin 32) ⟨K + r.val, by have := r.isLt; omega⟩ h : ℝ) : EReal) := by
  unfold eB en
  simp only [H.h0, H.h1, H.h2, ← EReal.coe_mul]
  rw [coe_sum, ← EReal.coe_add]
  rfl

/-- The block's scores are the specification's. -/
theorem sB_real (H : BlockIs x w wb vw vb x0 x1 x2 x3 x4 bi K hK) (p : Fin 16) (r : Fin 256) :
    sB x0 x1 x2 x3 x4 p r = ((sc x w wb vw vb (⟨16 * bi.val + p.val, by have := bi.isLt; have := p.isLt; omega⟩ : Fin 32) ⟨K + r.val, by have := r.isLt; omega⟩ : ℝ) : EReal) := by
  unfold sB sc
  simp only [eB_real x w wb vw vb x0 x1 x2 x3 x4 bi K hK H, H.h3, H.h4, ← EReal.coe_mul]
  rw [coe_sum, ← EReal.coe_add]

/-- A row block's first point: from the reset values. -/
theorem step_first (H : BlockIs x w wb vw vb x0 x1 x2 x3 x4 bi 0 (by norm_num)) :
    StateOK x w wb vw vb bi 256 (k0_pay2 (k0_pay10 x0 x1 x2 x3 x4 (k0_pay5 (F := Ideal)))) (k0_pay3 (k0_pay11 x0 x1 x2 x3 x4 (k0_pay5 (F := Ideal)) (k0_pay5 (F := Ideal))) (k0_pay13 x0 x1 x2 x3 x4 (k0_pay5 (F := Ideal))) (k0_pay6 (F := Ideal))) (k0_pay1 (k0_pay8 x0 x1 x2) (k0_pay11 x0 x1 x2 x3 x4 (k0_pay5 (F := Ideal)) (k0_pay5 (F := Ideal))) (k0_pay12 x0 x1 x2 x3 x4 (k0_pay5 (F := Ideal))) (k0_pay7 (F := Ideal))) := by
  unfold StateOK
  intro p
  have hs : ∀ r : Fin 256, sB x0 x1 x2 x3 x4 p r
      = ((sc x w wb vw vb (⟨16 * bi.val + p.val, by have := bi.isLt; have := p.isLt; omega⟩ : Fin 32) ⟨r.val, by have := r.isLt; omega⟩ : ℝ) : EReal) :=
    fun r => (sB_real x w wb vw vb x0 x1 x2 x3 x4 bi 0 (by norm_num) H p r).trans (by simp only [Nat.zero_add])
  have he : ∀ (r : Fin 256) (h : Fin 512), eB x0 x1 x2 p r h
      = ((en x w wb (⟨16 * bi.val + p.val, by have := bi.isLt; have := p.isLt; omega⟩ : Fin 32) ⟨r.val, by have := r.isLt; omega⟩ h : ℝ) : EReal) :=
    fun r h => (eB_real x w wb vw vb x0 x1 x2 x3 x4 bi 0 (by norm_num) H p r h).trans (by simp only [Nat.zero_add])
  have key := rowOK_first (sc x w wb vw vb (⟨16 * bi.val + p.val, by have := bi.isLt; have := p.isLt; omega⟩ : Fin 32)) (en x w wb (⟨16 * bi.val + p.val, by have := bi.isLt; have := p.isLt; omega⟩ : Fin 32))
    (fun r => sB x0 x1 x2 x3 x4 p r) (fun r h => eB x0 x1 x2 p r h) hs he (mN x0 x1 x2 x3 x4 (k0_pay5 (F := Ideal)) p) (by unfold mN; rw [pay5_apply])
  rw [newMax_apply, newDen_apply]
  simp only [newAcc_apply, pay5_apply, pay6_apply, pay7_apply]
  exact key

/-- A later point of the row block: from the state the point before left. -/
theorem step_next (H : BlockIs x w wb vw vb x0 x1 x2 x3 x4 bi K hK) (mo lo : Vec Ideal S16x1 .f32) (ao : Vec Ideal S16x512 .f32)
    (hprev : StateOK x w wb vw vb bi K mo lo ao) :
    StateOK x w wb vw vb bi (K + 256) (k0_pay2 (k0_pay10 x0 x1 x2 x3 x4 mo)) (k0_pay3 (k0_pay11 x0 x1 x2 x3 x4 mo mo) (k0_pay13 x0 x1 x2 x3 x4 mo) lo) (k0_pay1 (k0_pay8 x0 x1 x2) (k0_pay11 x0 x1 x2 x3 x4 mo mo) (k0_pay12 x0 x1 x2 x3 x4 mo) ao) := by
  unfold StateOK
  intro p
  have key := rowOK_next (sc x w wb vw vb (⟨16 * bi.val + p.val, by have := bi.isLt; have := p.isLt; omega⟩ : Fin 32)) (en x w wb (⟨16 * bi.val + p.val, by have := bi.isLt; have := p.isLt; omega⟩ : Fin 32)) K hK
    (mo (ix2 p (0 : Fin 1))) (lo (ix2 p (0 : Fin 1))) (fun h => ao (ix2 p h)) (hprev p)
    (fun r => sB x0 x1 x2 x3 x4 p r) (fun r h => eB x0 x1 x2 p r h)
    (fun r => sB_real x w wb vw vb x0 x1 x2 x3 x4 bi K hK H p r) (fun r h => eB_real x w wb vw vb x0 x1 x2 x3 x4 bi K hK H p r h)
    (mN x0 x1 x2 x3 x4 mo p) rfl
  rw [newMax_apply, newDen_apply]
  simp only [newAcc_apply]
  exact key

end

/-- With all 4096 steps in, the quotient of the weighted sums by the denominator is the pooled energy. -/
theorem step_out (x : Fin 32 → Fin 4096 → Fin 512 → ℝ) (w : Fin 512 → Fin 512 → ℝ) (wb vw : Fin 512 → ℝ) (vb : ℝ) (bi : Fin 2) (mS lS : Vec Ideal S16x1 .f32) (aS : Vec Ideal S16x512 .f32) (hfin : StateOK x w wb vw vb bi 4096 mS lS aS)
    (p : Fin 16) (h : Fin 512) :
    k0_pay4 aS lS (ix2 p h) = ((pool x w wb vw vb (⟨16 * bi.val + p.val, by have := bi.isLt; have := p.isLt; omega⟩ : Fin 32) h : ℝ) : EReal) := by
  rw [pay4_apply]
  exact rowOK_final _ _ _ _ _ (hfin p) h

/-! ## The points of the grid -/

/-- The five argument arrays in a memory, on a device. -/
abbrev aX (m : (ℓ : Loc nD τ sig) → Buf (Elt Ideal) ℓ) (c : Dev nD) := m ((c : Thread nD τ).loc main_arg0)
abbrev aW (m : (ℓ : Loc nD τ sig) → Buf (Elt Ideal) ℓ) (c : Dev nD) := m ((c : Thread nD τ).loc main_arg1)
abbrev aWb (m : (ℓ : Loc nD τ sig) → Buf (Elt Ideal) ℓ) (c : Dev nD) := m ((c : Thread nD τ).loc main_arg2)
abbrev aVw (m : (ℓ : Loc nD τ sig) → Buf (Elt Ideal) ℓ) (c : Dev nD) := m ((c : Thread nD τ).loc main_arg3)
abbrev aVb (m : (ℓ : Loc nD τ sig) → Buf (Elt Ideal) ℓ) (c : Dev nD) := m ((c : Thread nD τ).loc main_arg4)

section
variable (m : (ℓ : Loc nD τ sig) → Buf (Elt Ideal) ℓ) (c : Dev nD)

variable (hX : IsReal (aX m c)) (hW : IsReal (aW m c)) (hWb : IsReal (aWb m c)) (hVw : IsReal (aVw m c)) (hVb : IsReal (aVb m c))
include hX hW hWb hVw hVb

/-- The input blocks of point t are the rows 16·(t / 16) + p and the steps 256·(t % 16) + r of the arguments. -/
theorem blockIs (t : Fin cfg0.N) (bi : Fin 2) (K : ℕ) (hb : bi.val = t.val / 16) (hk : K = 256 * (t.val % 16)) (hK : K + 256 ≤ 4096) :
    BlockIs (xR (aX m c)) (wR (aW m c)) (wbR (aWb m c)) (vwR (aVw m c)) (vbR (aVb m c)) (iblk m c 0 t) (iblk m c 1 t) (iblk m c 2 t) (iblk m c 3 t) (iblk m c 4 t) bi K hK := by
  subst hk
  obtain ⟨bv, hbv⟩ := bi
  obtain rfl : bv = t.val / 16 := hb
  exact ⟨fun p r d => (Blocks.blk0 m c t p r d).trans (hX _), fun d h => (Blocks.blk1 m c t d h).trans (hW _),
    fun h => (Blocks.blk2 m c t h).trans (hWb _), fun h => (Blocks.blk3 m c t h).trans (hVw _),
    (Blocks.blk4 m c t).trans (hVb _)⟩

/-- THE INVARIANT, point by point: after point n the carried buffers hold, for the rows of its row block, the partial
    sums over the first 256·(n % 16 + 1) steps. -/
theorem inv : ∀ (n : ℕ) (hn : n < cfg0.N) (bi : Fin 2) (K : ℕ), bi.val = n / 16 → K = 256 * (n % 16 + 1) →
    StateOK (xR (aX m c)) (wR (aW m c)) (wbR (aWb m c)) (vwR (aVw m c)) (vbR (aVb m c)) bi K
      (outsAt0 m c n hn).2.1 (outsAt0 m c n hn).2.2.1 (outsAt0 m c n hn).2.2.2 := by
  intro n
  induction n with
  | zero =>
    intro hn bi K hb hK
    obtain rfl : K = 256 := by omega
    rw [PointState.atA_m m c ⟨0, hn⟩ rfl (by show ¬(0 : ℕ) % 16 = 15; decide), PointState.atA_l m c ⟨0, hn⟩ rfl (by show ¬(0 : ℕ) % 16 = 15; decide),
      PointState.atA_a m c ⟨0, hn⟩ rfl (by show ¬(0 : ℕ) % 16 = 15; decide)]
    exact step_first _ _ _ _ _ _ _ _ _ _ bi (blockIs m c hX hW hWb hVw hVb ⟨0, hn⟩ bi 0 hb (by norm_num) (by norm_num))
  | succ n ih =>
    intro hn bi K hb hK
    have hN : n + 1 < 32 := lt_of_lt_of_eq hn (show cfg0.N = 32 from N_0)
    by_cases h0 : (n + 1) % 16 = 0
    · have h1 : ¬(n + 1) % 16 = 15 := by omega
      obtain rfl : K = 256 := by omega
      rw [PointState.atA_m m c ⟨n + 1, hn⟩ h0 h1, PointState.atA_l m c ⟨n + 1, hn⟩ h0 h1,
        PointState.atA_a m c ⟨n + 1, hn⟩ h0 h1]
      exact step_first _ _ _ _ _ _ _ _ _ _ bi
        (blockIs m c hX hW hWb hVw hVb ⟨n + 1, hn⟩ bi 0 hb (by show 0 = 256 * ((n + 1) % 16); omega) (by norm_num))
    · have hprev := ih (Nat.lt_of_succ_lt hn) bi (256 * ((n + 1) % 16)) (by omega) (by omega)
      obtain rfl : K = 256 * ((n + 1) % 16) + 256 := by omega
      have hK' : 256 * ((n + 1) % 16) + 256 ≤ 4096 := by omega
      by_cases h1 : (n + 1) % 16 = 15
      · rw [PointState.atC_m m c ⟨n + 1, hn⟩ h0 h1, PointState.atC_l m c ⟨n + 1, hn⟩ h0 h1,
          PointState.atC_a m c ⟨n + 1, hn⟩ h0 h1]
        exact step_next _ _ _ _ _ _ _ _ _ _ bi _ hK'
          (blockIs m c hX hW hWb hVw hVb ⟨n + 1, hn⟩ bi _ hb rfl hK') _ _ _ hprev
      · rw [PointState.atB_m m c ⟨n + 1, hn⟩ h0 h1, PointState.atB_l m c ⟨n + 1, hn⟩ h0 h1,
          PointState.atB_a m c ⟨n + 1, hn⟩ h0 h1]
        exact step_next _ _ _ _ _ _ _ _ _ _ bi _ hK'
          (blockIs m c hX hW hWb hVw hVb ⟨n + 1, hn⟩ bi _ hb rfl hK') _ _ _ hprev

/-- At a row block's last point the output block is the pooled energy of its sixteen rows. -/
theorem out_eq (t : Fin cfg0.N) (h15 : t.val % 16 = 15) (p : Fin 16) (h : Fin 512) :
    (outsAt0 m c t.val t.isLt).1 (ix2 p h)
      = G (aX m c) (aW m c) (aWb m c) (aVw m c) (aVb m c) (ix2 (⟨16 * (t.val / 16) + p.val, by
          have := t.isLt; have hN : cfg0.N = 32 := N_0; have := p.isLt; omega⟩ : Fin 32) h) := by
  have hN : cfg0.N = 32 := N_0
  have h0 : ¬t.val % 16 = 0 := by omega
  have hI := inv m c hX hW hWb hVw hVb t.val t.isLt ⟨t.val / 16, by have := t.isLt; omega⟩ 4096 rfl (by omega)
  have e := PointState.atC_o m c t h0 h15
  rw [← PointState.atC_a m c t h0 h15, ← PointState.atC_l m c t h0 h15] at e
  rw [e]
  exact step_out _ _ _ _ _ ⟨t.val / 16, by have := t.isLt; omega⟩ _ _ _ hI p h

/-- The result array after the run. -/
theorem final : (dats m 0 c).arrAt 5 cfg0.N = G (aX m c) (aW m c) (aWb m c) (aVw m c) (aVb m c) :=
  Blocks.final_of_out m c (G (aX m c) (aW m c) (aWb m c) (aVw m c) (aVb m c)) (fun t h15 p h => out_eq m c hX hW hWb hVw hVb t h15 p h)

end

end Cert.AttnPool.KernelValue

end
-- ==== Proof.RefValue.lean ====
/-
  The reference program computes the specification's array wherever its arguments are real.

  The program forms the energies e(b,t,h) = tanh (Σ_d x(b,t,d)·w(h,d) + wb(h)) and the scores
  s(b,t) = Σ_h e(b,t,h)·vw(h) + vb, subtracts from each row of scores a number M(b) it obtains by folding max over
  the row, exponentiates, divides by the row's sum and pools the energies with these weights. A softmax does not
  change when one finite number is subtracted from every score of a row, so all that is needed of M(b) is that it is
  a real number; that it is the row's maximum plays no part.
-/
import proofs.«112554_j26792005993026_2_alg».proof.Proof.Gen.ReferenceIdeal.Read
import proofs.«112554_j26792005993026_2_alg».proof.Proof.Spec
import Idealize.ShloMosaic.PureOps.Reduce
import Idealize.ShloMosaic.PureOps.Ideal.Laws

noncomputable section

namespace Cert.AttnPool.Ref

open Cert.ReferenceIdeal Cert.ReferenceIdeal.Gen Cert.ReferenceIdeal.Read Idealize.ShloMosaic Idealize.ShloMosaic.ValueIdx

/-! ## Real arithmetic inside the extended reals -/

/-- The coercion of a finite real sum is the sum of the coercions. -/
theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of products of real numbers, computed in the extended reals, is the real sum of products. -/
theorem sum_coe_mul_coe {ι : Type} [Fintype ι] (f g : ι → ℝ) :
    ∑ i, ((f i : ℝ) : EReal) * ((g i : ℝ) : EReal) = ((∑ i, f i * g i : ℝ) : EReal) := by
  rw [coe_sum]
  exact Finset.sum_congr rfl fun i _ => (EReal.coe_mul _ _).symm

/-- Subtracting one real number from every score of a row does not change the softmax-weighted sum. -/
theorem softmax_shift {ι : Type} [Fintype ι] (s e : ι → ℝ) (c : ℝ) :
    ∑ t, Real.exp (s t - c) * (1 / ∑ t', Real.exp (s t' - c)) * e t
      = ∑ t, (Real.exp (s t) / ∑ t', Real.exp (s t')) * e t := by
  refine Finset.sum_congr rfl fun t _ => ?_
  congr 1
  have hc : Real.exp c ≠ 0 := (Real.exp_pos c).ne'
  have h1 : ∀ u, Real.exp (s u - c) = Real.exp (s u) / Real.exp c := fun u => Real.exp_sub _ _
  simp only [h1]
  rw [← Finset.sum_div, mul_one_div, div_div_div_cancel_right₀ hc]

/-- The maximum of finitely many real numbers, folded from −∞ over a nonempty index type, is a real number. -/
theorem fold_max_real {ι : Type} [Fintype ι] [Nonempty ι] (f : ι → EReal) (hf : ∀ k, ∃ r : ℝ, f k = (r : EReal)) :
    ∃ c : ℝ, (Finset.univ : Finset ι).fold max ⊥ f = (c : EReal) := by
  obtain ⟨k, -, hk⟩ := Finset.exists_mem_eq_sup (Finset.univ : Finset ι) Finset.univ_nonempty f
  obtain ⟨r, hr⟩ := hf k
  exact ⟨r, (show (Finset.univ : Finset ι).fold max ⊥ f = Finset.univ.sup f from rfl).trans (hk.trans hr)⟩

/-! ## The stages of the program at real arguments -/

section Stages

variable (X : (⟨S32x4096x512, .f32⟩ : BufTy).Contents (Elt Ideal)) (W : (⟨S512x512, .f32⟩ : BufTy).Contents (Elt Ideal))
  (Wb : (⟨S512, .f32⟩ : BufTy).Contents (Elt Ideal)) (Vw : (⟨S1x512, .f32⟩ : BufTy).Contents (Elt Ideal))
  (Vb : (⟨S1, .f32⟩ : BufTy).Contents (Elt Ideal))

/-- The energies: the transposed tanh stage, at any index (b, ·, t, h), is the coercion of the energy e(b,t,h). -/
theorem v6_at (hX : IsReal X) (hW : IsReal W) (hWb : IsReal Wb) (i : S32x1x4096x512.Idx) :
    val_main_v6 (F := Ideal) X W Wb i = ((en (xR X) (wR W) (wbR Wb) (i 0) (i 2) (i 3) : ℝ) : EReal) := by
  have h0 : (i 0).val < 32 := (i 0).isLt
  have h1 : (i 1).val < 1 := (i 1).isLt
  have h2 : (i 2).val < 4096 := (i 2).isLt
  have h3 : (i 3).val < 512 := (i 3).isLt
  have el : ∀ k : Fin 512, lidx_main_v0 (idx_main_v5 (idx_main_v6 i)) k
      = ix3 (n0 := 32) (n1 := 4096) (n2 := 512) (i 0) (i 2) k := fun k =>
    funext fun a => Fin.ext (by
      match a with
      | ⟨0, _⟩ => show ((((i 0).val * 4096 + (i 2).val) * 1 + (i 1).val) * 512 + (i 3).val) / 2097152 = (i 0).val; omega
      | ⟨1, _⟩ => show ((((i 0).val * 4096 + (i 2).val) * 1 + (i 1).val) * 512 + (i 3).val) / 512 % 4096 = (i 2).val; omega
      | ⟨2, _⟩ => rfl)
  have er : ∀ k : Fin 512, ridx_main_v0 (idx_main_v5 (idx_main_v6 i)) k = ix2 (n0 := 512) (n1 := 512) (i 3) k := fun k =>
    funext fun a => Fin.ext (by
      match a with
      | ⟨0, _⟩ => show ((((i 0).val * 4096 + (i 2).val) * 1 + (i 1).val) * 512 + (i 3).val) % 512 = (i 3).val; omega
      | ⟨1, _⟩ => rfl)
  have eb : idx_main_v1 (idx_main_v2 (idx_main_v5 (idx_main_v6 i))) = ix1 (n := 512) (i 3) :=
    funext fun a => Fin.ext (by
      match a with
      | ⟨0, _⟩ => show ((((i 0).val * 4096 + (i 2).val) * 1 + (i 1).val) * 512 + (i 3).val) % 512 = (i 3).val; omega)
  have hx : ∀ k : Fin 512, X (ix3 (n0 := 32) (n1 := 4096) (n2 := 512) (i 0) (i 2) k) = ((xR X (i 0) (i 2) k : ℝ) : EReal) :=
    fun k => hX _
  have hw : ∀ k : Fin 512, W (ix2 (n0 := 512) (n1 := 512) (i 3) k) = ((wR W (i 3) k : ℝ) : EReal) := fun k => hW _
  have hb : Wb (ix1 (n := 512) (i 3)) = ((wbR Wb (i 3) : ℝ) : EReal) := hWb _
  rw [val_main_v6_apply, val_main_v5_apply, val_main_v4_apply, val_main_v3_apply, val_main_v0_apply,
    val_main_v2_apply, val_main_v1_apply, eb, hb]
  simp only [el, er, hx, hw]
  rw [sum_coe_mul_coe, Ideal.hostUnary_tanh_def, Ideal.addf_def, ← EReal.coe_add, Ideal.tanh_coe]
  rfl

/-- The scores: the stage that adds the scoring bias, at any index (b, ·, t, ·), is the coercion of the score s(b,t). -/
theorem v10_at (hX : IsReal X) (hW : IsReal W) (hWb : IsReal Wb) (hVw : IsReal Vw) (hVb : IsReal Vb)
    (i : S32x1x4096x1.Idx) :
    val_main_v10 (F := Ideal) X W Wb Vw Vb i
      = ((sc (xR X) (wR W) (wbR Wb) (vwR Vw) (vbR Vb) (i 0) (i 2) : ℝ) : EReal) := by
  have h3 : (i 3).val < 1 := (i 3).isLt
  have er : ∀ k : Fin 512, ridx_main_v7 i k = ix2 (n0 := 1) (n1 := 512) (0 : Fin 1) k := fun k =>
    funext fun a => Fin.ext (by
      match a with
      | ⟨0, _⟩ => show (i 3).val = 0; omega
      | ⟨1, _⟩ => rfl)
  have eb : idx_main_v8 (idx_main_v9 i) = ix1 (n := 1) (0 : Fin 1) :=
    funext fun a => Fin.ext (by match a with | ⟨0, _⟩ => rfl)
  have he : ∀ k : Fin 512, val_main_v6 (F := Ideal) X W Wb (lidx_main_v7 i k)
      = ((en (xR X) (wR W) (wbR Wb) (i 0) (i 2) k : ℝ) : EReal) := fun k => v6_at X W Wb hX hW hWb _
  have hv : ∀ k : Fin 512, Vw (ix2 (n0 := 1) (n1 := 512) (0 : Fin 1) k) = ((vwR Vw k : ℝ) : EReal) := fun k => hVw _
  have hb : Vb (ix1 (n := 1) (0 : Fin 1)) = ((vbR Vb : ℝ) : EReal) := hVb _
  rw [val_main_v10_apply, val_main_v7_apply, val_main_v9_apply, val_main_v8_apply, eb, hb]
  simp only [er, he, hv]
  rw [sum_coe_mul_coe, Ideal.addf_def, ← EReal.coe_add]
  rfl

/-- The energies by coordinates. -/
theorem v6_real (hX : IsReal X) (hW : IsReal W) (hWb : IsReal Wb) (b : Fin 32) (t : Fin 4096) (h : Fin 512) :
    val_main_v6 (F := Ideal) X W Wb (ix4 b (0 : Fin 1) t h) = ((en (xR X) (wR W) (wbR Wb) b t h : ℝ) : EReal) :=
  v6_at X W Wb hX hW hWb _

/-- The scores by coordinates. -/
theorem v10_real (hX : IsReal X) (hW : IsReal W) (hWb : IsReal Wb) (hVw : IsReal Vw) (hVb : IsReal Vb)
    (b : Fin 32) (t : Fin 4096) :
    val_main_v10 (F := Ideal) X W Wb Vw Vb (ix4 b (0 : Fin 1) t (0 : Fin 1))
      = ((sc (xR X) (wR W) (wbR Wb) (vwR Vw) (vbR Vb) b t : ℝ) : EReal) :=
  v10_at X W Wb Vw Vb hX hW hWb hVw hVb _

end Stages

/-! ## The subtracted number, and the stages after it -/

section Softmax

variable (X : (⟨S32x4096x512, .f32⟩ : BufTy).Contents (Elt Ideal)) (W : (⟨S512x512, .f32⟩ : BufTy).Contents (Elt Ideal))
  (Wb : (⟨S512, .f32⟩ : BufTy).Contents (Elt Ideal)) (Vw : (⟨S1x512, .f32⟩ : BufTy).Contents (Elt Ideal))
  (Vb : (⟨S1, .f32⟩ : BufTy).Contents (Elt Ideal))

/-- The pattern of the reduction's initial value is −∞. -/
theorem ofBits_neg_inf : FloatOps.ofBits (F := Ideal) .f32 0xFF800000#32 = (⊥ : EReal) := by
  simp [Ideal.ofBits, Ideal.ieee]

/-- The number subtracted from a row of scores is a real number: it is a fold of max, from −∞, over the 4096 real
    scores of the row, joined once more with −∞. -/
theorem v13_real (hX : IsReal X) (hW : IsReal W) (hWb : IsReal Wb) (hVw : IsReal Vw) (hVb : IsReal Vb)
    (j : S32x1x1.Idx) : ∃ c : ℝ, val_main_v13 (F := Ideal) X W Wb Vw Vb j = (c : EReal) := by
  have hred : S32x1x4096x1.Reduces [2] S32x1x1 := by decide
  haveI : Nonempty (Fin (S32x1x4096x1.size 2)) := ⟨⟨0, by decide⟩⟩
  obtain ⟨c, hc⟩ := fold_max_real (fun k => val_main_v10 (F := Ideal) X W Wb Vw Vb (hred.lift j k))
    (fun k => ⟨_, v10_at X W Wb Vw Vb hX hW hWb hVw hVb _⟩)
  refine ⟨c, ?_⟩
  rw [val_main_v13_apply, val_main_v12_apply, val_main_cst_0_apply, ofBits_neg_inf, Ideal.maximumf_def, max_bot_left]
  unfold val_main_v11
  rw [Host.reduce_eq_fold_single FloatOps.maximumf _ _ reducesTo_S32x1x4096x1_S32x1x1_d2 hred h_S_, val_main_cst_apply,
    ofBits_neg_inf]
  exact hc

/-- The row's index into the subtracted numbers, read through the two broadcasts. -/
theorem idx_v14_v15 (i : S32x1x4096x1.Idx) :
    idx_main_v14 (idx_main_v15 i) = ix3 (n0 := 32) (n1 := 1) (n2 := 1) (i 0) (0 : Fin 1) (0 : Fin 1) :=
  funext fun a => Fin.ext (by match a with | ⟨0, _⟩ => rfl | ⟨1, _⟩ => rfl | ⟨2, _⟩ => rfl)

/-- The exponentials: with the row's subtracted number the real c, the stage at (b, ·, t, ·) is exp (s(b,t) − c). -/
theorem v17_at (hX : IsReal X) (hW : IsReal W) (hWb : IsReal Wb) (hVw : IsReal Vw) (hVb : IsReal Vb)
    (i : S32x1x4096x1.Idx) (c : ℝ)
    (hc : val_main_v13 (F := Ideal) X W Wb Vw Vb (ix3 (n0 := 32) (n1 := 1) (n2 := 1) (i 0) (0 : Fin 1) (0 : Fin 1)) = (c : EReal)) :
    val_main_v17 (F := Ideal) X W Wb Vw Vb i
      = ((Real.exp (sc (xR X) (wR W) (wbR Wb) (vwR Vw) (vbR Vb) (i 0) (i 2) - c) : ℝ) : EReal) := by
  rw [val_main_v17_apply, val_main_v16_apply, val_main_v15_apply, val_main_v14_apply, idx_v14_v15, hc,
    v10_at X W Wb Vw Vb hX hW hWb hVw hVb, Ideal.hostUnary_exp_def, Ideal.subf_def, ← EReal.coe_sub, Ideal.exp_coe]

/-- The row sums of the exponentials. -/
theorem v18_at (hX : IsReal X) (hW : IsReal W) (hWb : IsReal Wb) (hVw : IsReal Vw) (hVb : IsReal Vb)
    (j : S32x1x1.Idx) (c : ℝ)
    (hc : val_main_v13 (F := Ideal) X W Wb Vw Vb (ix3 (n0 := 32) (n1 := 1) (n2 := 1) (j 0) (0 : Fin 1) (0 : Fin 1)) = (c : EReal)) :
    val_main_v18 (F := Ideal) X W Wb Vw Vb j
      = ((∑ t : Fin 4096, Real.exp (sc (xR X) (wR W) (wbR Wb) (vwR Vw) (vbR Vb) (j 0) t - c) : ℝ) : EReal) := by
  have h17 : ∀ k : Fin 4096, val_main_v17 (F := Ideal) X W Wb Vw Vb (idx_main_v18 j k)
      = ((Real.exp (sc (xR X) (wR W) (wbR Wb) (vwR Vw) (vbR Vb) (j 0) k - c) : ℝ) : EReal) :=
    fun k => v17_at X W Wb Vw Vb hX hW hWb hVw hVb (idx_main_v18 j k) c hc
  rw [val_main_v18_apply, val_main_cst_1_apply, Ideal.ofBits_def, Ideal.ofBits_zero_f32, zero_add]
  simp only [h17]
  rw [← coe_sum]

/-- The softmax weights, with the subtracted number still in them. -/
theorem v21_at (hX : IsReal X) (hW : IsReal W) (hWb : IsReal Wb) (hVw : IsReal Vw) (hVb : IsReal Vb)
    (i : S32x1x4096x1.Idx) (c : ℝ)
    (hc : val_main_v13 (F := Ideal) X W Wb Vw Vb (ix3 (n0 := 32) (n1 := 1) (n2 := 1) (i 0) (0 : Fin 1) (0 : Fin 1)) = (c : EReal)) :
    val_main_v21 (F := Ideal) X W Wb Vw Vb i
      = ((Real.exp (sc (xR X) (wR W) (wbR Wb) (vwR Vw) (vbR Vb) (i 0) (i 2) - c)
          * (1 / ∑ t : Fin 4096, Real.exp (sc (xR X) (wR W) (wbR Wb) (vwR Vw) (vbR Vb) (i 0) t - c)) : ℝ) : EReal) := by
  have h18 : val_main_v18 (F := Ideal) X W Wb Vw Vb (idx_main_v19 (idx_main_v20 i))
      = ((∑ t : Fin 4096, Real.exp (sc (xR X) (wR W) (wbR Wb) (vwR Vw) (vbR Vb) (i 0) t - c) : ℝ) : EReal) :=
    v18_at X W Wb Vw Vb hX hW hWb hVw hVb (idx_main_v19 (idx_main_v20 i)) c hc
  have hne : (∑ t : Fin 4096, Real.exp (sc (xR X) (wR W) (wbR Wb) (vwR Vw) (vbR Vb) (i 0) t - c)) ≠ 0 :=
    (Finset.sum_pos (fun t _ => Real.exp_pos _) Finset.univ_nonempty).ne'
  rw [val_main_v21_apply, val_main_v20_apply, val_main_v19_apply, h18,
    v17_at X W Wb Vw Vb hX hW hWb hVw hVb i c hc, Ideal.hostDivf_def, Ideal.div_coe hne, ← EReal.coe_mul]

end Softmax

/-! ## The result -/

/-- At real arguments the reference program's result is the specification's array. -/
theorem val_eq_G (X : (⟨S32x4096x512, .f32⟩ : BufTy).Contents (Elt Ideal)) (W : (⟨S512x512, .f32⟩ : BufTy).Contents (Elt Ideal))
    (Wb : (⟨S512, .f32⟩ : BufTy).Contents (Elt Ideal)) (Vw : (⟨S1x512, .f32⟩ : BufTy).Contents (Elt Ideal))
    (Vb : (⟨S1, .f32⟩ : BufTy).Contents (Elt Ideal))
    (hX : IsReal X) (hW : IsReal W) (hWb : IsReal Wb) (hVw : IsReal Vw) (hVb : IsReal Vb) :
    Cert.ReferenceIdeal.Read.val_main_v25 (F := Ideal) X W Wb Vw Vb = Cert.AttnPool.G X W Wb Vw Vb := by
  funext i
  obtain ⟨b, h, rfl⟩ : ∃ (b : Fin 32) (h : Fin 512), i = ix2 b h := ⟨i 0, i 1, eq_ix2 i⟩
  have hb : b.val < 32 := b.isLt
  have hh : h.val < 512 := h.isLt
  have e25 : idx_main_v25 (ix2 b h) = ix3 (n0 := 32) (n1 := 1) (n2 := 512) b (0 : Fin 1) h :=
    funext fun a => Fin.ext (by
      match a with
      | ⟨0, _⟩ => show (b.val * 512 + h.val) / 512 = b.val; omega
      | ⟨1, _⟩ => rfl
      | ⟨2, _⟩ => show (b.val * 512 + h.val) % 512 = h.val; omega)
  obtain ⟨c, hc⟩ := v13_real X W Wb Vw Vb hX hW hWb hVw hVb (ix3 (n0 := 32) (n1 := 1) (n2 := 1) b (0 : Fin 1) (0 : Fin 1))
  have h23 : ∀ k : Fin 4096, val_main_v23 (F := Ideal) X W Wb Vw Vb
        (idx_main_v24 (ix3 (n0 := 32) (n1 := 1) (n2 := 512) b (0 : Fin 1) h) k)
      = ((Real.exp (sc (xR X) (wR W) (wbR Wb) (vwR Vw) (vbR Vb) b k - c)
          * (1 / ∑ t : Fin 4096, Real.exp (sc (xR X) (wR W) (wbR Wb) (vwR Vw) (vbR Vb) b t - c))
          * en (xR X) (wR W) (wbR Wb) b k h : ℝ) : EReal) := by
    intro k
    have h21 : val_main_v21 (F := Ideal) X W Wb Vw Vb
          (idx_main_v22 (idx_main_v24 (ix3 (n0 := 32) (n1 := 1) (n2 := 512) b (0 : Fin 1) h) k))
        = ((Real.exp (sc (xR X) (wR W) (wbR Wb) (vwR Vw) (vbR Vb) b k - c)
            * (1 / ∑ t : Fin 4096, Real.exp (sc (xR X) (wR W) (wbR Wb) (vwR Vw) (vbR Vb) b t - c)) : ℝ) : EReal) :=
      v21_at X W Wb Vw Vb hX hW hWb hVw hVb _ c hc
    have h6 : val_main_v6 (F := Ideal) X W Wb (idx_main_v24 (ix3 (n0 := 32) (n1 := 1) (n2 := 512) b (0 : Fin 1) h) k)
        = ((en (xR X) (wR W) (wbR Wb) b k h : ℝ) : EReal) := v6_at X W Wb hX hW hWb _
    rw [val_main_v23_apply, val_main_v22_apply, h21, h6, Ideal.mulf_def, ← EReal.coe_mul]
  rw [G_apply, val_main_v25_apply, e25, val_main_v24_apply, val_main_cst_2_apply, Ideal.ofBits_def, Ideal.ofBits_zero_f32,
    zero_add]
  simp only [h23]
  rw [← coe_sum, softmax_shift]
  rfl

end Cert.AttnPool.Ref

end
-- ==== Proof.Finite.lean ====
/-
  Finiteness of the argument arrays, read back from the stated precondition.

  The precondition is, for each of the five float arrays A, the conjunction over all indices i of |A i| < +∞, and the
  conjunction of the five. In the extended reals |x| = max x (-x), so |⊤| = ⊤ and |⊥| = max ⊥ ⊤ = ⊤, neither of which
  is below ⊤: an entry whose absolute value is below +∞ is neither infinity, i.e. it is a real number.
-/
import proofs.«112554_j26792005993026_2_alg».proof.Pre_finite_inputs
import proofs.«112554_j26792005993026_2_alg».proof.Proof.Spec
import Idealize.ShloMosaic.Lib.ReduceAll

namespace Cert.AttnPool.Finite

open Idealize.ShloMosaic Cert.Pre_finite_inputs

/-- The scalar shape has one index. -/
instance : Subsingleton S_.Idx := ⟨fun a b => funext fun d => d.elim0⟩

/-- The pattern 0x7F800000 (sign 0, exponent all ones, significand 0) denotes +∞. -/
theorem ofBits_inf : Ideal.ofBits .f32 0x7F800000#32 = (⊤ : EReal) := by
  simp [Ideal.ofBits, Ideal.ieee]

/-- An extended real whose absolute value max x (-x) is below ⊤ is neither infinity. -/
theorem ne_of_abs_lt_top (x : EReal) (h : max x (-x) < (⊤ : EReal)) : x ≠ ⊤ ∧ x ≠ ⊥ := by
  refine ⟨?_, ?_⟩
  · rintro rfl
    simp at h
  · rintro rfl
    simp at h

/-- One entry: the comparison |x| < +∞ answering 1 says x is neither infinity. -/
theorem ne_of_cmp (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  have h' : Ideal.cmp .olt (max (x : EReal) (-(x : EReal))) (Ideal.ofBits .f32 0x7F800000#32) = 1#1 := h
  rw [ofBits_inf] at h'
  unfold Ideal.cmp at h'
  refine ne_of_abs_lt_top x ?_
  by_contra hn
  simp [hn] at h'

/-- One array of any shape: if the conjunction over all indices of |A i| < +∞ is 1, every entry of A is a real number. -/
theorem isReal_of_all {s : Shape} {axes : List (Fin s.rank)} (A : FVec Ideal s .f32)
    (hb : S_.BroadcastsInDim s (![] : Fin 0 → Fin s.rank)) (hr : s.ReducesTo axes S_) (hu : 0 < S_.numel)
    (init : IVec S_ 1)
    (e : Host.reduce IntOp.andi
          (cmpf .olt (Host.absf A) (broadcastInDim s ![] hb (constant S_ .f32 0x7F800000#32))) init hr hu
          ValueIdx.ix0 = 1#1) :
    IsReal A := by
  refine isReal_of_ne A fun i => ?_
  have hi := Host.reduce_andi_all _ init hr hu ValueIdx.ix0 e i
  exact ne_of_cmp (A i) hi

/-- The stated precondition, at the five argument arrays, says every entry of every array is a real number. -/
theorem isReal_of_pre [Cert.Pre_finite_inputs.Facts]
    (x0 : (⟨S32x4096x512, .f32⟩ : BufTy).Contents (Elt Ideal))
    (x1 : (⟨S512x512, .f32⟩ : BufTy).Contents (Elt Ideal))
    (x2 : (⟨S512, .f32⟩ : BufTy).Contents (Elt Ideal))
    (x3 : (⟨S1x512, .f32⟩ : BufTy).Contents (Elt Ideal))
    (x4 : (⟨S1, .f32⟩ : BufTy).Contents (Elt Ideal))
    (h : Cert.Pre_finite_inputs.fn (F := Ideal) x0 x1 x2 x3 x4 = (fun _ => 1#1)) :
    IsReal x0 ∧ IsReal x1 ∧ IsReal x2 ∧ IsReal x3 ∧ IsReal x4 := by
  have h0 := congrFun h ValueIdx.ix0
  dsimp only [fn, fn_part1, andi] at h0
  simp only [IntOp.andi_eq_one] at h0
  obtain ⟨⟨⟨⟨e0, e1⟩, e2⟩, e3⟩, e4⟩ := h0
  exact ⟨isReal_of_all x0 _ _ _ _ e0, isReal_of_all x1 _ _ _ _ e1, isReal_of_all x2 _ _ _ _ e2,
    isReal_of_all x3 _ _ _ _ e3, isReal_of_all x4 _ _ _ _ e4⟩

end Cert.AttnPool.Finite
-- ==== Proof.lean ====
/-
  Attention pooling with additive scores: a kernel that computes the softmax over 4096 time steps block by block
  (16 blocks of 256, a running maximum, a running denominator and a running weighted sum rescaled at every block) against
  the reference that computes the softmax of each whole row at once.

  On the extended reals, with every input entry finite, both results are the same function G of the five argument arrays:
  the energies e = tanh(x · Wᵀ + b), the scores s = e · v + b', and Σ_t (exp s_t / Σ exp s) · e_t (Proof/Spec.lean).
    • The reference subtracts each row's maximum before exponentiating; the kernel subtracts a running maximum that changes
      from block to block and rescales what it has accumulated. Neither changes the softmax: subtracting one finite number
      from all scores of a row cancels in the quotient (Proof/SpecLaws.lean), so only the finiteness of the subtracted number
      is ever used — and a maximum of finitely many reals is a real (Proof/LibEReal.lean).
    • Finiteness matters: the laws used (distributing exp(c − c') over a sum, cancelling a common factor in a quotient) fail
      at infinities, and the first block starts from the running maximum −∞, where exp(−∞ − c) = 0 multiplies 0.
  The kernel side: Proof/Pieces.lean, Proof/PointState.lean (what each grid point leaves in the carried buffers),
  Proof/PayIdx.lean (the body's arithmetic at an index), Proof/Blocks.lean (the windows' blocks; the result array from its
  blocks), Proof/RowStep.lean and Proof/KernelValue.lean (the invariant, by induction on the grid point). The reference side:
  Proof/RefValue.lean. The precondition gives the finiteness: Proof/Finite.lean.

  The three frames are the generated ones (the reference's is its generated run with the result dropped); the kernel's
  idealization rewrote nothing, so that conjunct is trivial.
-/
import proofs.«112554_j26792005993026_2_alg».proof.Defs
import proofs.«112554_j26792005993026_2_alg».proof.Proof.Gen.Kernel
import proofs.«112554_j26792005993026_2_alg».proof.Proof.Gen.Kernel.Skeleton
import proofs.«112554_j26792005993026_2_alg».proof.Proof.Gen.Kernel.Launch
import proofs.«112554_j26792005993026_2_alg».proof.Proof.Gen.Kernel.Points
import proofs.«112554_j26792005993026_2_alg».proof.Proof.Gen.Kernel.Frame
import proofs.«112554_j26792005993026_2_alg».proof.Proof.Gen.KernelIdeal
import proofs.«112554_j26792005993026_2_alg».proof.Proof.Gen.KernelIdeal.Skeleton
import proofs.«112554_j26792005993026_2_alg».proof.Proof.Gen.KernelIdeal.Launch
import proofs.«112554_j26792005993026_2_alg».proof.Proof.Gen.KernelIdeal.Points
import proofs.«112554_j26792005993026_2_alg».proof.Proof.Gen.KernelIdeal.Frame
import proofs.«112554_j26792005993026_2_alg».proof.Proof.Gen.KernelIdeal.Value
import proofs.«112554_j26792005993026_2_alg».proof.Proof.Gen.ReferenceIdeal
import proofs.«112554_j26792005993026_2_alg».proof.Proof.Gen.ReferenceIdeal.Run
import proofs.«112554_j26792005993026_2_alg».proof.Proof.Gen.ReferenceIdeal.Read
import proofs.«112554_j26792005993026_2_alg».proof.Proof.Gen.Pre_finite_inputs
import proofs.«112554_j26792005993026_2_alg».proof.Proof.KernelValue
import proofs.«112554_j26792005993026_2_alg».proof.Proof.RefValue
import proofs.«112554_j26792005993026_2_alg».proof.Proof.Finite
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Both programs end with the pooled energy G of the argument arrays: the kernel by the invariant of its carried buffers
    (KernelValue.final), the reference stage by stage (Ref.val_eq_G); the precondition makes every argument entry a real. -/
theorem algebraic : Cert.algebraic_KernelIdeal_ReferenceIdeal := by
  intro m ρ m' ρ' hpre hagree
  have hR := fun c => Cert.AttnPool.Finite.isReal_of_pre _ _ _ _ _ (hpre c)
  refine ⟨fun c => Cert.AttnPool.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun r h c => ⟨(h c).1.trans (Cert.AttnPool.KernelValue.final m c (hR c).1 (hR c).2.1 (hR c).2.2.1 (hR c).2.2.2.1 (hR c).2.2.2.2), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v25_eq, (hagree c).1, (hagree c).2.1, (hagree c).2.2.1, (hagree c).2.2.2.1, (hagree c).2.2.2.2]
    exact Cert.AttnPool.Ref.val_eq_G _ _ _ _ _ (hR c).1 (hR c).2.1 (hR c).2.2.1 (hR c).2.2.2.1 (hR c).2.2.2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
